-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S5x128x128 : Shape := ⟨3, ![5, 128, 128]⟩
abbrev S5x128 : Shape := ⟨2, ![5, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S5x128x128 .f32) (main_arg3 : FVec F S5x128 .f32) (main_arg4 : FVec F S5x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg2
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg3
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x128 .f32 := Host.absf main_arg4
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 137
  | .vmem => 45
  | .smem => 0
  | _ => 0

abbrev hbmTy0_0 (i : Nat) : BufTy := match i % 128 with
  | 0 => ⟨S50000x128, .f32⟩
  | 1 => ⟨S2x600000, .i32⟩
  | 2 => ⟨S5x128x128, .f32⟩
  | 3 => ⟨S5x128, .f32⟩
  | 4 => ⟨S5x128x128, .f32⟩
  | 5 => ⟨S1x600000, .i32⟩
  | 6 => ⟨S600000, .i32⟩
  | 7 => ⟨S1x600000, .i32⟩
  | 8 => ⟨S600000, .i32⟩
  | 9 => ⟨S_, .f32⟩
  | 10 => ⟨S600000, .f32⟩
  | 11 => ⟨S_, .f32⟩
  | 12 => ⟨S50000, .f32⟩
  | 13 => ⟨S600000x1, .i32⟩
  | 14 => ⟨S50000, .f32⟩
  | 15 => ⟨S_, .f32⟩
  | 16 => ⟨S50000, .f32⟩
  | 17 => ⟨S50000, .f32⟩
  | 18 => ⟨S_, .f32⟩
  | 19 => ⟨S50000, .f32⟩
  | 20 => ⟨S50000, .f32⟩
  | 21 => ⟨S50000x1, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S50000x128, .f32⟩
  | 36 => ⟨S50000x128, .f32⟩
  | 37 => ⟨S1x128x128, .f32⟩
  | 38 => ⟨S128x128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S50000x128, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S_, .f32⟩
  | 55 => ⟨S50000x128, .f32⟩
  | 56 => ⟨S600000x1, .i32⟩
  | 57 => ⟨S50000x128, .f32⟩
  | 58 => ⟨S50000x128, .f32⟩
  | 59 => ⟨S50000x128, .f32⟩
  | 60 => ⟨S1x128x128, .f32⟩
  | 61 => ⟨S128x128, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S50000x128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S_, .f32⟩
  | 78 => ⟨S50000x128, .f32⟩
  | 79 => ⟨S600000x1, .i32⟩
  | 80 => ⟨S50000x128, .f32⟩
  | 81 => ⟨S50000x128, .f32⟩
  | 82 => ⟨S50000x128, .f32⟩
  | 83 => ⟨S1x128x128, .f32⟩
  | 84 => ⟨S128x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S50000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S_, .f32⟩
  | 101 => ⟨S50000x128, .f32⟩
  | 102 => ⟨S600000x1, .i32⟩
  | 103 => ⟨S50000x128, .f32⟩
  | 104 => ⟨S50000x128, .f32⟩
  | 105 => ⟨S50000x128, .f32⟩
  | 106 => ⟨S1x128x128, .f32⟩
  | 107 => ⟨S128x128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S50000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128x128, .f32⟩
  | 2 => ⟨S128x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_8 : Ref sig .tc := ⟨.hbm, 68, rfl⟩
abbrev main_v53 : Ref sig .tc := ⟨.hbm, 69, rfl⟩
abbrev main_v54 : Ref sig .tc := ⟨.hbm, 70, rfl⟩
abbrev main_c_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_11 : Ref sig .tc := ⟨.hbm, 91, rfl⟩
abbrev main_v73 : Ref sig .tc := ⟨.hbm, 92, rfl⟩
abbrev main_v74 : Ref sig .tc := ⟨.hbm, 93, rfl⟩
abbrev main_c_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_c_14 : Ref sig .tc := ⟨.hbm, 114, rfl⟩
abbrev main_v93 : Ref sig .tc := ⟨.hbm, 115, rfl⟩
abbrev main_v94 : Ref sig .tc := ⟨.hbm, 116, rfl⟩
abbrev main_c_15 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_16 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v84) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v104) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v112) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S2x600000, .i32⟩
  | 2 => ⟨S5x128x128, .f32⟩
  | 3 => ⟨S5x128, .f32⟩
  | 4 => ⟨S5x128x128, .f32⟩
  | 5 => ⟨S1x600000, .i32⟩
  | 6 => ⟨S600000, .i32⟩
  | 7 => ⟨S1x600000, .i32⟩
  | 8 => ⟨S600000, .i32⟩
  | 9 => ⟨S_, .f32⟩
  | 10 => ⟨S600000, .f32⟩
  | 11 => ⟨S_, .f32⟩
  | 12 => ⟨S50000, .f32⟩
  | 13 => ⟨S600000x1, .i32⟩
  | 14 => ⟨S50000, .f32⟩
  | 15 => ⟨S_, .f32⟩
  | 16 => ⟨S50000, .f32⟩
  | 17 => ⟨S50000, .f32⟩
  | 18 => ⟨S_, .f32⟩
  | 19 => ⟨S50000, .f32⟩
  | 20 => ⟨S50000, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S50000x1, .f32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S50000x1, .f32⟩
  | 66 => ⟨S50000x128, .f32⟩
  | 67 => ⟨S50000x128, .f32⟩
  | 68 => ⟨S1x128x128, .f32⟩
  | 69 => ⟨S128x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128x128, .f32⟩
  | 77 => ⟨S128x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S_, .f32⟩
  | 93 => ⟨S50000x128, .f32⟩
  | 94 => ⟨S600000x1, .i32⟩
  | 95 => ⟨S50000x128, .f32⟩
  | 96 => ⟨S50000x1, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S1x128x128, .f32⟩
  | 3 => ⟨S128x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128x128, .f32⟩
  | 11 => ⟨S128x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S50000x1, .f32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_cst : Ref sig .tc := ⟨.hbm, 49, rfl⟩
abbrev main_call0_v0 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call1_cst : Ref sig .tc := ⟨.hbm, 80, rfl⟩
abbrev main_call1_v0 : Ref sig .tc := ⟨.hbm, 81, rfl⟩
abbrev main_v63 : Ref sig .tc := ⟨.hbm, 82, rfl⟩
abbrev main_c_8 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call2_cst : Ref sig .tc := ⟨.hbm, 111, rfl⟩
abbrev main_call2_v0 : Ref sig .tc := ⟨.hbm, 112, rfl⟩
abbrev main_v89 : Ref sig .tc := ⟨.hbm, 113, rfl⟩
abbrev main_c_11 : Ref sig .tc := ⟨.hbm, 114, rfl⟩
abbrev main_v90 : Ref sig .tc := ⟨.hbm, 115, rfl⟩
abbrev main_v91 : Ref sig .tc := ⟨.hbm, 116, rfl⟩
abbrev main_c_12 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_13 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_call3_cst : Ref sig .tc := ⟨.hbm, 142, rfl⟩
abbrev main_call3_v0 : Ref sig .tc := ⟨.hbm, 143, rfl⟩
abbrev main_v115 : Ref sig .tc := ⟨.hbm, 144, rfl⟩
abbrev main_c_14 : Ref sig .tc := ⟨.hbm, 145, rfl⟩
abbrev main_v116 : Ref sig .tc := ⟨.hbm, 146, rfl⟩
abbrev main_v117 : Ref sig .tc := ⟨.hbm, 147, rfl⟩
abbrev main_c_15 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_16 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run, with its result named.

  @main is ten segments: a stretch of host operations before each of the five layer kernels. The run of the
  segments ends with every unscoped buffer of the device at the contents of the last boundary of the fold
  through @main (`W10`): the arguments as launched, and the result buffer at whatever that fold leaves in it.
  What that is, as a function of the arguments, is read off the fold in the value modules.
-/
import proofs.«150988_j51238959841366_1_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v112) = W10 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v112 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c)⟩)

end Cert.Sage.KernelRun

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«150988_j51238959841366_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibSageAffine.lean ====
/-
  One layer of a mean-aggregating graph network, entry by entry on the extended reals — general in the extents
  M (rows), K (input features), N (output features), and in the number of rows R of a block.

  A layer takes the aggregated neighbour features `A` and the nodes' own features `X` (both [M, K]), two weight
  matrices `Wl`, `Wr` ([K, N]) and a bias `b` (one entry per output column), and returns, at (r, j),

      ∑ k, A (r, k) · Wl (k, j)  +  ∑ k, X (r, k) · Wr (k, j)  +  b j ,

  followed, in every layer but the last, by the maximum with zero. One program adds the two products first and
  the bias last; the other adds the bias to the first product and the second product last. Addition of extended
  reals is commutative and associative (also at the infinities), so the two orders give the same entry: this is
  the only law the comparison needs, and it needs no entry to be finite.

  The network stacks five such layers; the aggregation `agg` that produces `A` from `X` (a gather along the
  edges, a scatter-add into the target nodes, a division by the in-degree) is the same function in both
  programs and is carried here as a parameter, never opened.
-/
import Idealize.ShloMosaic.PureOps.Ideal.Laws
import Idealize.ShloMosaic.Lib.ValueIdx
import proofs.«150988_j51238959841366_1_alg».proof.Proof.LibRowsTimes

noncomputable section

namespace Cert.Sage

open Idealize.ShloMosaic Idealize.ShloMosaic.ValueIdx Cert.Dense

variable {M K N : Nat}

/-- `(A · Wl + X · Wr) + b`: the two products first, the bias (one entry per column) last. -/
def affine (A X : (⟨2, ![M, K]⟩ : Shape).Idx → EReal) (Wl Wr : (⟨2, ![K, N]⟩ : Shape).Idx → EReal)
    (b : Fin N → EReal) : (⟨2, ![M, N]⟩ : Shape).Idx → EReal :=
  fun i => (rowsTimes A Wl i + rowsTimes X Wr i) + b (i 1 : Fin N)

/-- The other order of the same three terms, `(A · Wl + b) + X · Wr`, is the same entry. -/
theorem affine_bias_first (A X : (⟨2, ![M, K]⟩ : Shape).Idx → EReal) (Wl Wr : (⟨2, ![K, N]⟩ : Shape).Idx → EReal)
    (b : Fin N → EReal) (i : (⟨2, ![M, N]⟩ : Shape).Idx) :
    (rowsTimes A Wl i + b (i 1 : Fin N)) + rowsTimes X Wr i = affine A X Wl Wr b i :=
  add_right_comm _ _ _

/-- Rows of a layer are layers of rows: if the blocks `a`, `x` (R rows) hold at row `j 0` what the whole arrays
    `A`, `X` hold at row `i 0`, the weight blocks agree with the weights at columns `j 1` and `i 1`, and so do the
    biases, then the block's entry at `j` is the whole layer's entry at `i`. This is why a layer computed one
    block of rows at a time is the whole layer. -/
theorem affine_of_rows {R N' : Nat} (A X : (⟨2, ![M, K]⟩ : Shape).Idx → EReal) (Wl Wr : (⟨2, ![K, N]⟩ : Shape).Idx → EReal)
    (b : Fin N → EReal)
    (a x : (⟨2, ![R, K]⟩ : Shape).Idx → EReal) (wl wr : (⟨2, ![K, N']⟩ : Shape).Idx → EReal) (b' : Fin N' → EReal)
    (j : (⟨2, ![R, N']⟩ : Shape).Idx) (i : (⟨2, ![M, N]⟩ : Shape).Idx)
    (ha : ∀ k : Fin K, a (ix2 (j 0 : Fin R) k) = A (ix2 (i 0 : Fin M) k))
    (hx : ∀ k : Fin K, x (ix2 (j 0 : Fin R) k) = X (ix2 (i 0 : Fin M) k))
    (hwl : ∀ k : Fin K, wl (ix2 k (j 1 : Fin N')) = Wl (ix2 k (i 1 : Fin N)))
    (hwr : ∀ k : Fin K, wr (ix2 k (j 1 : Fin N')) = Wr (ix2 k (i 1 : Fin N)))
    (hb : b' (j 1 : Fin N') = b (i 1 : Fin N)) :
    affine a x wl wr b' j = affine A X Wl Wr b i := by
  unfold affine
  rw [rowsTimes_of_rows A Wl a wl j i ha hwl, rowsTimes_of_rows X Wr x wr j i hx hwr, hb]

/-- The same for a rectified layer. -/
theorem relu_affine_of_rows {R N' : Nat} (A X : (⟨2, ![M, K]⟩ : Shape).Idx → EReal) (Wl Wr : (⟨2, ![K, N]⟩ : Shape).Idx → EReal)
    (b : Fin N → EReal)
    (a x : (⟨2, ![R, K]⟩ : Shape).Idx → EReal) (wl wr : (⟨2, ![K, N']⟩ : Shape).Idx → EReal) (b' : Fin N' → EReal)
    (j : (⟨2, ![R, N']⟩ : Shape).Idx) (i : (⟨2, ![M, N]⟩ : Shape).Idx)
    (ha : ∀ k : Fin K, a (ix2 (j 0 : Fin R) k) = A (ix2 (i 0 : Fin M) k))
    (hx : ∀ k : Fin K, x (ix2 (j 0 : Fin R) k) = X (ix2 (i 0 : Fin M) k))
    (hwl : ∀ k : Fin K, wl (ix2 k (j 1 : Fin N')) = Wl (ix2 k (i 1 : Fin N)))
    (hwr : ∀ k : Fin K, wr (ix2 k (j 1 : Fin N')) = Wr (ix2 k (i 1 : Fin N)))
    (hb : b' (j 1 : Fin N') = b (i 1 : Fin N)) :
    relu (affine a x wl wr b') j = relu (affine A X Wl Wr b) i :=
  congrArg (fun z => max z (Ideal.ofBits .f32 0x00000000#32)) (affine_of_rows A X Wl Wr b a x wl wr b' j i ha hx hwl hwr hb)

variable {D : Nat}

/-- A hidden layer: aggregate, apply the affine map, rectify. -/
def hidden (agg : ((⟨2, ![M, D]⟩ : Shape).Idx → EReal) → (⟨2, ![M, D]⟩ : Shape).Idx → EReal)
    (Wl Wr : (⟨2, ![D, D]⟩ : Shape).Idx → EReal) (b : Fin D → EReal)
    (h : (⟨2, ![M, D]⟩ : Shape).Idx → EReal) : (⟨2, ![M, D]⟩ : Shape).Idx → EReal :=
  relu (affine (agg h) h Wl Wr b)

/-- The output layer: the same without the rectifier. -/
def output (agg : ((⟨2, ![M, D]⟩ : Shape).Idx → EReal) → (⟨2, ![M, D]⟩ : Shape).Idx → EReal)
    (Wl Wr : (⟨2, ![D, D]⟩ : Shape).Idx → EReal) (b : Fin D → EReal)
    (h : (⟨2, ![M, D]⟩ : Shape).Idx → EReal) : (⟨2, ![M, D]⟩ : Shape).Idx → EReal :=
  affine (agg h) h Wl Wr b

end Cert.Sage

end
-- ==== Proof.BlockLayer.lean ====
/-
  What one grid point of a layer's kernel stores, entry by entry on the extended reals.

  The body loads a block of 5000 rows of the aggregated features `a` and of the node features `x`, the two
  128×128 weight matrices and the bias kept as a 1×128 row; it casts the four matrix operands to a narrower
  float format (the identity on the extended reals), multiplies `a · wl` and `x · wr` on the matrix unit into
  zero accumulators, adds the two products, adds the bias row repeated down the rows, and (in the four hidden
  layers) takes the maximum with zero. At (p, q) that is

      max ((∑ k, a (p, k) · wl (k, q) + ∑ k, x (p, k) · wr (k, q)) + b (0, q)) 0 ,

  the block's own layer `relu (affine a x wl wr b)` — for the last layer the same without the maximum.
-/
import Idealize.ShloMosaic.Lib.ValueLayout
import Idealize.ShloMosaic.Lib.Pipeline.Value
import proofs.«150988_j51238959841366_1_alg».proof.Proof.Gen.KernelIdeal.Skeleton
import proofs.«150988_j51238959841366_1_alg».proof.Proof.LibRowsCols
import proofs.«150988_j51238959841366_1_alg».proof.Proof.LibSageAffine

noncomputable section

namespace Cert.Sage.Block

open Idealize.ShloMosaic Idealize.ShloMosaic.ValueIdx Cert.Dense Cert.Sage Cert.KernelIdeal Cert.KernelIdeal.Gen

/-- The kernel's contraction record multiplies rows by columns: one contracted axis of extent 128, the left
    operand read at (row, k), the right one at (k, column). -/
theorem rowsCols : RowsCols dot_S5000x128_S128x128_S5000x128_1_0_0_1_n_n :=
  ⟨rfl, rfl, fun _ _ => rfl, fun _ _ => rfl, fun _ _ => rfl, fun _ _ => rfl⟩

/-- The bias row as one entry per column. -/
abbrev rowOf (b : Vec Ideal S1x128 .f32) : Fin 128 → EReal := fun q => b (ix2 (0 : Fin 1) q)

/-- Two products into zero accumulators, added, plus the bias row repeated down the rows: the affine part of
    the layer on the block, whatever float formats the four matrix operands are held in. -/
theorem affine_apply {φ₁ φ₂ φ₃ φ₄ : FTy} (a : FVec Ideal S5000x128 φ₁) (x : FVec Ideal S5000x128 φ₂)
    (wl : FVec Ideal S128x128 φ₃) (wr : FVec Ideal S128x128 φ₄) (b : Vec Ideal S1x128 .f32) (j : S5000x128.Idx) :
    addf (addf (matmul dot_S5000x128_S128x128_S5000x128_1_0_0_1_n_n none a wl (constant (F := Ideal) S5000x128 .f32 0x00000000#32))
               (matmul dot_S5000x128_S128x128_S5000x128_1_0_0_1_n_n none x wr (constant (F := Ideal) S5000x128 .f32 0x00000000#32)))
         (broadcastTo S5000x128 (shapeCast S1x128 b shapeCasts_S1x128_S1x128) broadcasts_S1x128_S5000x128) j
      = affine a x wl wr (rowOf b) j := by
  obtain ⟨p, q, rfl⟩ : ∃ (p : Fin 5000) (q : Fin 128), j = ix2 p q := ⟨j 0, j 1, eq_ix2 j⟩
  show _ = (rowsTimes a wl (ix2 p q) + rowsTimes x wr (ix2 p q)) + b (ix2 (0 : Fin 1) q)
  refine (addf_apply _ _ _).trans (congrArg₂ (· + ·) ((addf_apply _ _ _).trans
    (congrArg₂ (· + ·) (matmul_zero_apply rowsCols none a wl (ix2 p q)) (matmul_zero_apply rowsCols none x wr (ix2 p q)))) ?_)
  rw [shapeCast_self]
  exact broadcastTo_1b_ab_apply b broadcasts_S1x128_S5000x128 p q

/-- Layer 0's body at one grid point stores the block's rectified layer: the casts to the narrower format and the
    shape casts to the same shape change nothing, the rest is `affine_apply` under the maximum with zero. -/
theorem pay0 (x0 x1 : Vec Ideal S5000x128 .f32) (x2 x3 : Vec Ideal S128x128 .f32) (x4 : Vec Ideal S1x128 .f32) :
    k0_pay1 (F := Ideal) x0 x1 x2 x3 x4 = relu (affine x0 x1 x2 x3 (rowOf x4)) := by
  funext j
  unfold k0_pay1
  refine (maximumf_apply _ _ j).trans (congrArg₂ max ((affine_apply _ _ _ _ x4 j).trans ?_) rfl)
  simp only [shapeCast_self]
  rfl

/-- Layer 1's body at one grid point stores the block's rectified layer: the casts to the narrower format and the
    shape casts to the same shape change nothing, the rest is `affine_apply` under the maximum with zero. -/
theorem pay1 (x0 x1 : Vec Ideal S5000x128 .f32) (x2 x3 : Vec Ideal S128x128 .f32) (x4 : Vec Ideal S1x128 .f32) :
    k1_pay1 (F := Ideal) x0 x1 x2 x3 x4 = relu (affine x0 x1 x2 x3 (rowOf x4)) := by
  funext j
  unfold k1_pay1
  refine (maximumf_apply _ _ j).trans (congrArg₂ max ((affine_apply _ _ _ _ x4 j).trans ?_) rfl)
  simp only [shapeCast_self]
  rfl

/-- Layer 2's body at one grid point stores the block's rectified layer: the casts to the narrower format and the
    shape casts to the same shape change nothing, the rest is `affine_apply` under the maximum with zero. -/
theorem pay2 (x0 x1 : Vec Ideal S5000x128 .f32) (x2 x3 : Vec Ideal S128x128 .f32) (x4 : Vec Ideal S1x128 .f32) :
    k2_pay1 (F := Ideal) x0 x1 x2 x3 x4 = relu (affine x0 x1 x2 x3 (rowOf x4)) := by
  funext j
  unfold k2_pay1
  refine (maximumf_apply _ _ j).trans (congrArg₂ max ((affine_apply _ _ _ _ x4 j).trans ?_) rfl)
  simp only [shapeCast_self]
  rfl

/-- Layer 3's body at one grid point stores the block's rectified layer: the casts to the narrower format and the
    shape casts to the same shape change nothing, the rest is `affine_apply` under the maximum with zero. -/
theorem pay3 (x0 x1 : Vec Ideal S5000x128 .f32) (x2 x3 : Vec Ideal S128x128 .f32) (x4 : Vec Ideal S1x128 .f32) :
    k3_pay1 (F := Ideal) x0 x1 x2 x3 x4 = relu (affine x0 x1 x2 x3 (rowOf x4)) := by
  funext j
  unfold k3_pay1
  refine (maximumf_apply _ _ j).trans (congrArg₂ max ((affine_apply _ _ _ _ x4 j).trans ?_) rfl)
  simp only [shapeCast_self]
  rfl

/-- The last layer's body stores the block's layer without the maximum. -/
theorem pay4 (x0 x1 : Vec Ideal S5000x128 .f32) (x2 x3 : Vec Ideal S128x128 .f32) (x4 : Vec Ideal S1x128 .f32) :
    k4_pay1 (F := Ideal) x0 x1 x2 x3 x4 = affine x0 x1 x2 x3 (rowOf x4) := by
  funext j
  unfold k4_pay1
  refine (affine_apply _ _ _ _ x4 j).trans ?_
  simp only [shapeCast_self]
  rfl

end Cert.Sage.Block

end
-- ==== Proof.Region0.lean ====
/-
  Layer 0's kernel over its whole grid: the array its ten blocks are written back to.

  The grid has ten points; point `t` reads rows 5000·t … 5000·t + 4999 of the aggregated features and of the node
  features, the whole of both weight matrices and of the bias row, and writes rows 5000·t … 5000·t + 4999 of the
  result. A block of the layer is the layer of the block's rows (rows of a product are products of rows), and the
  ten row blocks tile the 50000 rows, so the result array is the rectified layer of the whole arrays as the region
  finds them — stated for any contents `V` of the buffers at the region's entry.
-/
import Idealize.ShloMosaic.Lib.Pipeline.Value
import proofs.«150988_j51238959841366_1_alg».proof.Proof.Gen.KernelIdeal.Frame
import proofs.«150988_j51238959841366_1_alg».proof.Proof.BlockLayer

set_option maxRecDepth 16384

noncomputable section

namespace Cert.Sage.Region0

open Idealize.ShloMosaic Idealize.ShloMosaic.TcCoe Idealize.ShloMosaic.ValueIdx Idealize.SL.Sem
open Idealize.ShloMosaic.Pipeline (Dat)
open Cert.Dense Cert.Sage Cert.Sage.Block Cert.KernelIdeal Cert.KernelIdeal.Gen

variable (V : (c : Dev nD) → (b : Ref sig .tc) → Buf (Elt Ideal) ((c : Thread nD τ).loc b))

/-- The aggregated features, as the region finds them. -/
abbrev aggA (c : Dev nD) : S50000x128.Idx → EReal := V c (Pipeline.arrRef spec0 0)
/-- The node features. -/
abbrev featA (c : Dev nD) : S50000x128.Idx → EReal := V c (Pipeline.arrRef spec0 1)
/-- The first weight matrix. -/
abbrev wlA (c : Dev nD) : S128x128.Idx → EReal := V c (Pipeline.arrRef spec0 2)
/-- The second weight matrix. -/
abbrev wrA (c : Dev nD) : S128x128.Idx → EReal := V c (Pipeline.arrRef spec0 3)
/-- The bias row. -/
abbrev biasA (c : Dev nD) : S1x128.Idx → EReal := V c (Pipeline.arrRef spec0 4)

theorem hz : (![0, 0] : Fin 2 → Nat) = fun _ => 0 := funext fun a => by fin_cases a <;> rfl

/-- The printed index maps, decided once over the ten grid points: the two feature windows and the result window
    are at row block `t`, column block 0; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 10 :=
  (by decide +kernel : ∀ t : Fin grid0.N, _)

/-- Every row block is some point's. -/
theorem idx_onto : ∀ q : Fin 10, ∃ t : Fin cfg0.N, t.val = q.val :=
  (by decide +kernel : ∀ q : Fin 10, ∃ t : Fin grid0.N, t.val = q.val)

/-- The aggregated features' block at point `t`: rows 5000·t … of the array. -/
theorem rows0 (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (aggA V c) i := by
  obtain ⟨e0, e1, -⟩ := idx_facts t
  unfold iblk0
  rw [View.read_apply]
  refine congrArg (aggA V c) ?_
  funext a; apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The node features' block at point `t`: the same rows of their array. -/
theorem rows1 (c : Dev nD) (t : Fin cfg0.N) (y : S5000x128.Idx) (i : S50000x128.Idx)
    (h0 : (i 0).val = 5000 * t.val + (y 0).val) (h1 : (i 1).val = (y 1).val) :
    (iblk0 V c 1 t : Vec Ideal S5000x128 .f32) y = (featA V c) i := by
  obtain ⟨-, -, e0, e1, -⟩ := idx_facts t
  unfold iblk0
  rw [View.read_apply]
  refine congrArg (featA V c) ?_
  funext a; apply Fin.ext
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The first weight matrix is read whole at every point. -/
theorem whole2 (c : Dev nD) (t : Fin cfg0.N) (y : S128x128.Idx) :
    (iblk0 V c 2 t : Vec Ideal S128x128 .f32) y = (wlA V c) y := by
  obtain ⟨-, -, -, -, e0, e1, -⟩ := idx_facts t
  unfold iblk0
  rw [View.read_apply]
  refine congrArg (wlA V c) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- So is the second. -/
theorem whole3 (c : Dev nD) (t : Fin cfg0.N) (y : S128x128.Idx) :
    (iblk0 V c 3 t : Vec Ideal S128x128 .f32) y = (wrA V c) y := by
  obtain ⟨-, -, -, -, -, -, e0, e1, -⟩ := idx_facts t
  unfold iblk0
  rw [View.read_apply]
  refine congrArg (wrA V c) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- And the bias row. -/
theorem whole4 (c : Dev nD) (t : Fin cfg0.N) (y : S1x128.Idx) :
    (iblk0 V c 4 t : Vec Ideal S1x128 .f32) y = (biasA V c) y := by
  obtain ⟨-, -, -, -, -, -, -, -, e0, e1, -⟩ := idx_facts t
  unfold iblk0
  rw [View.read_apply]
  refine congrArg (biasA V c) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

set_option maxHeartbeats 1000000 in
/-- What point `t` writes back is block `t` of the rectified layer of the whole arrays. -/
theorem flushed_eq (c : Dev nD) (t : Fin cfg0.N) :
    (dat0 V c).flushed 5 t = ((cfg0.win 5).blk t).view.read (Elt Ideal)
      (relu (affine (aggA V c) (featA V c) (wlA V c) (wrA V c) (rowOf (biasA V c)))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0]
  obtain ⟨-, -, -, -, -, -, -, -, -, -, e0, e1, -⟩ := idx_facts t
  funext j
  rw [View.read_apply]
  have hi0 : ((((cfg0.win 5).blk t).view.emb j : S50000x128.Idx) 0).val = 5000 * t.val + (j 0).val := by
    show win0_5.index t (0 : Fin 2) * 5000 + 1 * (j 0).val = _; omega
  have hi1 : ((((cfg0.win 5).blk t).view.emb j : S50000x128.Idx) 1).val = (j 1).val := by
    show win0_5.index t (1 : Fin 2) * 128 + 1 * (j 1).val = _; omega
  exact relu_affine_of_rows (aggA V c) (featA V c) (wlA V c) (wrA V c) (rowOf (biasA V c))
    (iblk0 V c 0 t : Vec Ideal S5000x128 .f32) (iblk0 V c 1 t : Vec Ideal S5000x128 .f32)
    (iblk0 V c 2 t : Vec Ideal S128x128 .f32) (iblk0 V c 3 t : Vec Ideal S128x128 .f32)
    (rowOf (iblk0 V c 4 t : Vec Ideal S1x128 .f32)) j (((cfg0.win 5).blk t).view.emb j)
    (fun k => rows0 V c t _ _ hi0 rfl) (fun k => rows1 V c t _ _ hi0 rfl)
    (fun k => (whole2 V c t _).trans (congrArg (wlA V c) (by
      funext a; apply Fin.ext
      match a with
      | ⟨0, _⟩ => rfl
      | ⟨1, _⟩ => exact hi1.symm)))
    (fun k => (whole3 V c t _).trans (congrArg (wrA V c) (by
      funext a; apply Fin.ext
      match a with
      | ⟨0, _⟩ => rfl
      | ⟨1, _⟩ => exact hi1.symm)))
    ((whole4 V c t _).trans (congrArg (biasA V c) (by
      funext a; apply Fin.ext
      match a with
      | ⟨0, _⟩ => rfl
      | ⟨1, _⟩ => exact hi1.symm)))

/-- An index of the result array is in point `t`'s block iff each coordinate is in the block's range. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v32).slice (win0_5.rect t)).set ↔ _
  rw [View.set_slice_whole, Rect.mem_set_unit]
  exact Iff.rfl

/-- The ten row blocks tile the array: row `r` is in the block of point `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, e0, e1, -⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the region: the rectified layer of the arrays the region found. -/
theorem final (c : Dev nD) : (dat0 V c).arrAt 5 cfg0.N =
    (relu (affine (aggA V c) (featA V c) (wlA V c) (wrA V c) (rowOf (biasA V c)))) :=
  (dat0 V c).arrAt_eq_of_cover 5 _ (fun t _ => flushed_eq V c t) cover

end Cert.Sage.Region0

end
-- ==== Proof.Region1.lean ====
/-
  Layer 1's kernel over its whole grid: the array its ten blocks are written back to.

  The grid has ten points; point `t` reads rows 5000·t … 5000·t + 4999 of the aggregated features and of the node
  features, the whole of both weight matrices and of the bias row, and writes rows 5000·t … 5000·t + 4999 of the
  result. A block of the layer is the layer of the block's rows (rows of a product are products of rows), and the
  ten row blocks tile the 50000 rows, so the result array is the rectified layer of the whole arrays as the region
  finds them — stated for any contents `V` of the buffers at the region's entry.
-/
import Idealize.ShloMosaic.Lib.Pipeline.Value
import proofs.«150988_j51238959841366_1_alg».proof.Proof.Gen.KernelIdeal.Frame
import proofs.«150988_j51238959841366_1_alg».proof.Proof.BlockLayer

set_option maxRecDepth 16384

noncomputable section

namespace Cert.Sage.Region1

open Idealize.ShloMosaic Idealize.ShloMosaic.TcCoe Idealize.ShloMosaic.ValueIdx Idealize.SL.Sem
open Idealize.ShloMosaic.Pipeline (Dat)
open Cert.Dense Cert.Sage Cert.Sage.Block Cert.KernelIdeal Cert.KernelIdeal.Gen

variable (V : (c : Dev nD) → (b : Ref sig .tc) → Buf (Elt Ideal) ((c : Thread nD τ).loc b))

/-- The aggregated features, as the region finds them. -/
abbrev aggA (c : Dev nD) : S50000x128.Idx → EReal := V c (Pipeline.arrRef spec1 0)
/-- The node features. -/
abbrev featA (c : Dev nD) : S50000x128.Idx → EReal := V c (Pipeline.arrRef spec1 1)
/-- The first weight matrix. -/
abbrev wlA (c : Dev nD) : S128x128.Idx → EReal := V c (Pipeline.arrRef spec1 2)
/-- The second weight matrix. -/
abbrev wrA (c : Dev nD) : S128x128.Idx → EReal := V c (Pipeline.arrRef spec1 3)
/-- The bias row. -/
abbrev biasA (c : Dev nD) : S1x128.Idx → EReal := V c (Pipeline.arrRef spec1 4)

theorem hz : (![0, 0] : Fin 2 → Nat) = fun _ => 0 := funext fun a => by fin_cases a <;> rfl

/-- The printed index maps, decided once over the ten grid points: the two feature windows and the result window
    are at row block `t`, column block 0; the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 10 :=
  (by decide +kernel : ∀ t : Fin grid1.N, _)

/-- Every row block is some point's. -/
theorem idx_onto : ∀ q : Fin 10, ∃ t : Fin cfg1.N, t.val = q.val :=
  (by decide +kernel : ∀ q : Fin 10, ∃ t : Fin grid1.N, t.val = q.val)

/-- The aggregated features' block at point `t`: rows 5000·t … of the array. -/
theorem rows0 (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (aggA V c) i := by
  obtain ⟨e0, e1, -⟩ := idx_facts t
  unfold iblk1
  rw [View.read_apply]
  refine congrArg (aggA V c) ?_
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The node features' block at point `t`: the same rows of their array. -/
theorem rows1 (c : Dev nD) (t : Fin cfg1.N) (y : S5000x128.Idx) (i : S50000x128.Idx)
    (h0 : (i 0).val = 5000 * t.val + (y 0).val) (h1 : (i 1).val = (y 1).val) :
    (iblk1 V c 1 t : Vec Ideal S5000x128 .f32) y = (featA V c) i := by
  obtain ⟨-, -, e0, e1, -⟩ := idx_facts t
  unfold iblk1
  rw [View.read_apply]
  refine congrArg (featA V c) ?_
  funext a; apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The first weight matrix is read whole at every point. -/
theorem whole2 (c : Dev nD) (t : Fin cfg1.N) (y : S128x128.Idx) :
    (iblk1 V c 2 t : Vec Ideal S128x128 .f32) y = (wlA V c) y := by
  obtain ⟨-, -, -, -, e0, e1, -⟩ := idx_facts t
  unfold iblk1
  rw [View.read_apply]
  refine congrArg (wlA V c) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- So is the second. -/
theorem whole3 (c : Dev nD) (t : Fin cfg1.N) (y : S128x128.Idx) :
    (iblk1 V c 3 t : Vec Ideal S128x128 .f32) y = (wrA V c) y := by
  obtain ⟨-, -, -, -, -, -, e0, e1, -⟩ := idx_facts t
  unfold iblk1
  rw [View.read_apply]
  refine congrArg (wrA V c) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- And the bias row. -/
theorem whole4 (c : Dev nD) (t : Fin cfg1.N) (y : S1x128.Idx) :
    (iblk1 V c 4 t : Vec Ideal S1x128 .f32) y = (biasA V c) y := by
  obtain ⟨-, -, -, -, -, -, -, -, e0, e1, -⟩ := idx_facts t
  unfold iblk1
  rw [View.read_apply]
  refine congrArg (biasA V c) ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

set_option maxHeartbeats 1000000 in
/-- What point `t` writes back is block `t` of the rectified layer of the whole arrays. -/
theorem flushed_eq (c : Dev nD) (t : Fin cfg1.N) :
    (dat1 V c).flushed 5 t = ((cfg1.win 5).blk t).view.read (Elt Ideal)
      (relu (affine (aggA V c) (featA V c) (wlA V c) (wrA V c) (rowOf (biasA V c)))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay1]
  obtain ⟨-, -, -, -, -, -, -, -, -, -, e0, e1, -⟩ := idx_facts t
  funext j
  rw [View.read_apply]
  have hi0 : ((((cfg1.win 5).blk t).view.emb j : S50000x128.Idx) 0).val = 5000 * t.val + (j 0).val := by
    show win1_5.index t (0 : Fin 2) * 5000 + 1 * (j 0).val = _; omega
  have hi1 : ((((cfg1.win 5).blk t).view.emb j : S50000x128.Idx) 1).val = (j 1).val := by
    show win1_5.index t (1 : Fin 2) * 128 + 1 * (j 1).val = _; omega
  exact relu_affine_of_rows (aggA V c) (featA V c) (wlA V c) (wrA V c) (rowOf (biasA V c))
    (iblk1 V c 0 t : Vec Ideal S5000x128 .f32) (iblk1 V c 1 t : Vec Ideal S5000x128 .f32)
    (iblk1 V c 2 t : Vec Ideal S128x128 .f32) (iblk1 V c 3 t : Vec Ideal S128x128 .f32)
    (rowOf (iblk1 V c 4 t : Vec Ideal S1x128 .f32)) j (((cfg1.win 5).blk t).view.emb j)
    (fun k => rows0 V c t _ _ hi0 rfl) (fun k => rows1 V c t _ _ hi0 rfl)
    (fun k => (whole2 V c t _).trans (congrArg (wlA V c) (by
      funext a; apply Fin.ext
      match a with
      | ⟨0, _⟩ => rfl
      | ⟨1, _⟩ => exact hi1.symm)))
    (fun k => (whole3 V c t _).trans (congrArg (wrA V c) (by
      funext a; apply Fin.ext
      match a with
      | ⟨0, _⟩ => rfl
      | ⟨1, _⟩ => exact hi1.symm)))
    ((whole4 V c t _).trans (congrArg (biasA V c) (by
      funext a; apply Fin.ext
      match a with
      | ⟨0, _⟩ => rfl
      | ⟨1, _⟩ => exact hi1.symm)))

/-- An index of the result array is in point `t`'s block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- The ten row blocks tile the array: row `r` is in the block of point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, e0, e1, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the region: the rectified layer of the arrays the region found. -/
theorem final (c : Dev nD) : (dat1 V c).arrAt 5 cfg1.N =
    (relu (affine (aggA V c) (featA V c) (wlA V c) (wrA V c) (rowOf (biasA V c)))) :=
  (dat1 V c).arrAt_eq_of_cover 5 _ (fun t _ => flushed_eq V c t) cover

end Cert.Sage.Region1

end
-- ==== Proof.Region2.lean ====
/-
  Layer 2's kernel over its whole grid: the array its ten blocks are written back to.

  The grid has ten points; point `t` reads rows 5000·t … 5000·t + 4999 of the aggregated features and of the node
  features, the whole of both weight matrices and of the bias row, and writes rows 5000·t … 5000·t + 4999 of the
  result. A block of the layer is the layer of the block's rows (rows of a product are products of rows), and the
  ten row blocks tile the 50000 rows, so the result array is the rectified layer of the whole arrays as the region
  finds them — stated for any contents `V` of the buffers at the region's entry.
-/
import Idealize.ShloMosaic.Lib.Pipeline.Value
import proofs.«150988_j51238959841366_1_alg».proof.Proof.Gen.KernelIdeal.Frame
import proofs.«150988_j51238959841366_1_alg».proof.Proof.BlockLayer

set_option maxRecDepth 16384

noncomputable section

namespace Cert.Sage.Region2

open Idealize.ShloMosaic Idealize.ShloMosaic.TcCoe Idealize.ShloMosaic.ValueIdx Idealize.SL.Sem
open Idealize.ShloMosaic.Pipeline (Dat)
open Cert.Dense Cert.Sage Cert.Sage.Block Cert.KernelIdeal Cert.KernelIdeal.Gen

variable (V : (c : Dev nD) → (b : Ref sig .tc) → Buf (Elt Ideal) ((c : Thread nD τ).loc b))

/-- The aggregated features, as the region finds them. -/
abbrev aggA (c : Dev nD) : S50000x128.Idx → EReal := V c (Pipeline.arrRef spec2 0)
/-- The node features. -/
abbrev featA (c : Dev nD) : S50000x128.Idx → EReal := V c (Pipeline.arrRef spec2 1)
/-- The first weight matrix. -/
abbrev wlA (c : Dev nD) : S128x128.Idx → EReal := V c (Pipeline.arrRef spec2 2)
/-- The second weight matrix. -/
abbrev wrA (c : Dev nD) : S128x128.Idx → EReal := V c (Pipeline.arrRef spec2 3)
/-- The bias row. -/
abbrev biasA (c : Dev nD) : S1x128.Idx → EReal := V c (Pipeline.arrRef spec2 4)

theorem hz : (![0, 0] : Fin 2 → Nat) = fun _ => 0 := funext fun a => by fin_cases a <;> rfl

/-- The printed index maps, decided once over the ten grid points: the two feature windows and the result window
    are at row block `t`, column block 0; the weights and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ t.val < 10 :=
  (by decide +kernel : ∀ t : Fin grid2.N, _)

/-- Every row block is some point's. -/
theorem idx_onto : ∀ q : Fin 10, ∃ t : Fin cfg2.N, t.val = q.val :=
  (by decide +kernel : ∀ q : Fin 10, ∃ t : Fin grid2.N, t.val = q.val)

/-- The aggregated features' block at point `t`: rows 5000·t … of the array. -/
theorem rows0 (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (aggA V c) i := by
  obtain ⟨e0, e1, -⟩ := idx_facts t
  unfold iblk2
  rw [View.read_apply]
  refine congrArg (aggA V c) ?_
  funext a; apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The node features' block at point `t`: the same rows of their array. -/
theorem rows1 (c : Dev nD) (t : Fin cfg2.N) (y : S5000x128.Idx) (i : S50000x128.Idx)
    (h0 : (i 0).val = 5000 * t.val + (y 0).val) (h1 : (i 1).val = (y 1).val) :
    (iblk2 V c 1 t : Vec Ideal S5000x128 .f32) y = (featA V c) i := by
  obtain ⟨-, -, e0, e1, -⟩ := idx_facts t
  unfold iblk2
  rw [View.read_apply]
  refine congrArg (featA V c) ?_
  funext a; apply Fin.ext
  match a with
  | ⟨0, _⟩ => show win2_1.index t (0 : Fin 2) * 5000 + 1 * (y 0).val = (i 0).val; omega
  | ⟨1, _⟩ => show win2_1.index t (1 : Fin 2) * 128 + 1 * (y 1).val = (i 1).val; omega

/-- The first weight matrix is read whole at every point. -/
theorem whole2 (c : Dev nD) (t : Fin cfg2.N) (y : S128x128.Idx) :
    (iblk2 V c 2 t : Vec Ideal S128x128 .f32) y = (wlA V c) y := by
  obtain ⟨-, -, -, -, e0, e1, -⟩ := idx_facts t
  unfold iblk2
  rw [View.read_apply]
  refine congrArg (wlA V c) ?_
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- So is the second. -/
theorem whole3 (c : Dev nD) (t : Fin cfg2.N) (y : S128x128.Idx) :
    (iblk2 V c 3 t : Vec Ideal S128x128 .f32) y = (wrA V c) y := by
  obtain ⟨-, -, -, -, -, -, e0, e1, -⟩ := idx_facts t
  unfold iblk2
  rw [View.read_apply]
  refine congrArg (wrA V c) ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- And the bias row. -/
theorem whole4 (c : Dev nD) (t : Fin cfg2.N) (y : S1x128.Idx) :
    (iblk2 V c 4 t : Vec Ideal S1x128 .f32) y = (biasA V c) y := by
  obtain ⟨-, -, -, -, -, -, -, -, e0, e1, -⟩ := idx_facts t
  unfold iblk2
  rw [View.read_apply]
  refine congrArg (biasA V c) ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

set_option maxHeartbeats 1000000 in
/-- What point `t` writes back is block `t` of the rectified layer of the whole arrays. -/
theorem flushed_eq (c : Dev nD) (t : Fin cfg2.N) :
    (dat2 V c).flushed 5 t = ((cfg2.win 5).blk t).view.read (Elt Ideal)
      (relu (affine (aggA V c) (featA V c) (wlA V c) (wrA V c) (rowOf (biasA V c)))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  rw [pay2]
  obtain ⟨-, -, -, -, -, -, -, -, -, -, e0, e1, -⟩ := idx_facts t
  funext j
  rw [View.read_apply]
  have hi0 : ((((cfg2.win 5).blk t).view.emb j : S50000x128.Idx) 0).val = 5000 * t.val + (j 0).val := by
    show win2_5.index t (0 : Fin 2) * 5000 + 1 * (j 0).val = _; omega
  have hi1 : ((((cfg2.win 5).blk t).view.emb j : S50000x128.Idx) 1).val = (j 1).val := by
    show win2_5.index t (1 : Fin 2) * 128 + 1 * (j 1).val = _; omega
  exact relu_affine_of_rows (aggA V c) (featA V c) (wlA V c) (wrA V c) (rowOf (biasA V c))
    (iblk2 V c 0 t : Vec Ideal S5000x128 .f32) (iblk2 V c 1 t : Vec Ideal S5000x128 .f32)
    (iblk2 V c 2 t : Vec Ideal S128x128 .f32) (iblk2 V c 3 t : Vec Ideal S128x128 .f32)
    (rowOf (iblk2 V c 4 t : Vec Ideal S1x128 .f32)) j (((cfg2.win 5).blk t).view.emb j)
    (fun k => rows0 V c t _ _ hi0 rfl) (fun k => rows1 V c t _ _ hi0 rfl)
    (fun k => (whole2 V c t _).trans (congrArg (wlA V c) (by
      funext a; apply Fin.ext
      match a with
      | ⟨0, _⟩ => rfl
      | ⟨1, _⟩ => exact hi1.symm)))
    (fun k => (whole3 V c t _).trans (congrArg (wrA V c) (by
      funext a; apply Fin.ext
      match a with
      | ⟨0, _⟩ => rfl
      | ⟨1, _⟩ => exact hi1.symm)))
    ((whole4 V c t _).trans (congrArg (biasA V c) (by
      funext a; apply Fin.ext
      match a with
      | ⟨0, _⟩ => rfl
      | ⟨1, _⟩ => exact hi1.symm)))

/-- An index of the result array is in point `t`'s block iff each coordinate is in the block's range. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v72).slice (win2_5.rect t)).set ↔ _
  rw [View.set_slice_whole, Rect.mem_set_unit]
  exact Iff.rfl

/-- The ten row blocks tile the array: row `r` is in the block of point `r / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, e0, e1, -⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE RESULT ARRAY after the region: the rectified layer of the arrays the region found. -/
theorem final (c : Dev nD) : (dat2 V c).arrAt 5 cfg2.N =
    (relu (affine (aggA V c) (featA V c) (wlA V c) (wrA V c) (rowOf (biasA V c)))) :=
  (dat2 V c).arrAt_eq_of_cover 5 _ (fun t _ => flushed_eq V c t) cover

end Cert.Sage.Region2

end
-- ==== Proof.Region3.lean ====
/-
  Layer 3's kernel over its whole grid: the array its ten blocks are written back to.

  The grid has ten points; point `t` reads rows 5000·t … 5000·t + 4999 of the aggregated features and of the node
  features, the whole of both weight matrices and of the bias row, and writes rows 5000·t … 5000·t + 4999 of the
  result. A block of the layer is the layer of the block's rows (rows of a product are products of rows), and the
  ten row blocks tile the 50000 rows, so the result array is the rectified layer of the whole arrays as the region
  finds them — stated for any contents `V` of the buffers at the region's entry.
-/
import Idealize.ShloMosaic.Lib.Pipeline.Value
import proofs.«150988_j51238959841366_1_alg».proof.Proof.Gen.KernelIdeal.Frame
import proofs.«150988_j51238959841366_1_alg».proof.Proof.BlockLayer

set_option maxRecDepth 16384

noncomputable section

namespace Cert.Sage.Region3

open Idealize.ShloMosaic Idealize.ShloMosaic.TcCoe Idealize.ShloMosaic.ValueIdx Idealize.SL.Sem
open Idealize.ShloMosaic.Pipeline (Dat)
open Cert.Dense Cert.Sage Cert.Sage.Block Cert.KernelIdeal Cert.KernelIdeal.Gen

variable (V : (c : Dev nD) → (b : Ref sig .tc) → Buf (Elt Ideal) ((c : Thread nD τ).loc b))

/-- The aggregated features, as the region finds them. -/
abbrev aggA (c : Dev nD) : S50000x128.Idx → EReal := V c (Pipeline.arrRef spec3 0)
/-- The node features. -/
abbrev featA (c : Dev nD) : S50000x128.Idx → EReal := V c (Pipeline.arrRef spec3 1)
/-- The first weight matrix. -/
abbrev wlA (c : Dev nD) : S128x128.Idx → EReal := V c (Pipeline.arrRef spec3 2)
/-- The second weight matrix. -/
abbrev wrA (c : Dev nD) : S128x128.Idx → EReal := V c (Pipeline.arrRef spec3 3)
/-- The bias row. -/
abbrev biasA (c : Dev nD) : S1x128.Idx → EReal := V c (Pipeline.arrRef spec3 4)

theorem hz : (![0, 0] : Fin 2 → Nat) = fun _ => 0 := funext fun a => by fin_cases a <;> rfl

/-- The printed index maps, decided once over the ten grid points: the two feature windows and the result window
    are at row block `t`, column block 0; the weights and the bias stay at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ t.val < 10 :=
  (by decide +kernel : ∀ t : Fin grid3.N, _)

/-- Every row block is some point's. -/
theorem idx_onto : ∀ q : Fin 10, ∃ t : Fin cfg3.N, t.val = q.val :=
  (by decide +kernel : ∀ q : Fin 10, ∃ t : Fin grid3.N, t.val = q.val)

/-- The aggregated features' block at point `t`: rows 5000·t … of the array. -/
theorem rows0 (c : Dev nD) (t : Fin cfg3.N) (y : S5000x128.Idx) (i : S50000x128.Idx)
    (h0 : (i 0).val = 5000 * t.val + (y 0).val) (h1 : (i 1).val = (y 1).val) :
    (iblk3 V c 0 t : Vec Ideal S5000x128 .f32) y = (aggA V c) i := by
  obtain ⟨e0, e1, -⟩ := idx_facts t
  unfold iblk3
  rw [View.read_apply]
  refine congrArg (aggA V c) ?_
  funext a; apply Fin.ext
  match a with
  | ⟨0, _⟩ => show win3_0.index t (0 : Fin 2) * 5000 + 1 * (y 0).val = (i 0).val; omega
  | ⟨1, _⟩ => show win3_0.index t (1 : Fin 2) * 128 + 1 * (y 1).val = (i 1).val; omega

/-- The node features' block at point `t`: the same rows of their array. -/
theorem rows1 (c : Dev nD) (t : Fin cfg3.N) (y : S5000x128.Idx) (i : S50000x128.Idx)
    (h0 : (i 0).val = 5000 * t.val + (y 0).val) (h1 : (i 1).val = (y 1).val) :
    (iblk3 V c 1 t : Vec Ideal S5000x128 .f32) y = (featA V c) i := by
  obtain ⟨-, -, e0, e1, -⟩ := idx_facts t
  unfold iblk3
  rw [View.read_apply]
  refine congrArg (featA V c) ?_
  funext a; apply Fin.ext
  match a with
  | ⟨0, _⟩ => show win3_1.index t (0 : Fin 2) * 5000 + 1 * (y 0).val = (i 0).val; omega
  | ⟨1, _⟩ => show win3_1.index t (1 : Fin 2) * 128 + 1 * (y 1).val = (i 1).val; omega

/-- The first weight matrix is read whole at every point. -/
theorem whole2 (c : Dev nD) (t : Fin cfg3.N) (y : S128x128.Idx) :
    (iblk3 V c 2 t : Vec Ideal S128x128 .f32) y = (wlA V c) y := by
  obtain ⟨-, -, -, -, e0, e1, -⟩ := idx_facts t
  unfold iblk3
  rw [View.read_apply]
  refine congrArg (wlA V c) ?_
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- So is the second. -/
theorem whole3 (c : Dev nD) (t : Fin cfg3.N) (y : S128x128.Idx) :
    (iblk3 V c 3 t : Vec Ideal S128x128 .f32) y = (wrA V c) y := by
  obtain ⟨-, -, -, -, -, -, e0, e1, -⟩ := idx_facts t
  unfold iblk3
  rw [View.read_apply]
  refine congrArg (wrA V c) ?_
  funext a; apply Fin.ext
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- And the bias row. -/
theorem whole4 (c : Dev nD) (t : Fin cfg3.N) (y : S1x128.Idx) :
    (iblk3 V c 4 t : Vec Ideal S1x128 .f32) y = (biasA V c) y := by
  obtain ⟨-, -, -, -, -, -, -, -, e0, e1, -⟩ := idx_facts t
  unfold iblk3
  rw [View.read_apply]
  refine congrArg (biasA V c) ?_
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

set_option maxHeartbeats 1000000 in
/-- What point `t` writes back is block `t` of the rectified layer of the whole arrays. -/
theorem flushed_eq (c : Dev nD) (t : Fin cfg3.N) :
    (dat3 V c).flushed 5 t = ((cfg3.win 5).blk t).view.read (Elt Ideal)
      (relu (affine (aggA V c) (featA V c) (wlA V c) (wrA V c) (rowOf (biasA V c)))) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  rw [pay3]
  obtain ⟨-, -, -, -, -, -, -, -, -, -, e0, e1, -⟩ := idx_facts t
  funext j
  rw [View.read_apply]
  have hi0 : ((((cfg3.win 5).blk t).view.emb j : S50000x128.Idx) 0).val = 5000 * t.val + (j 0).val := by
    show win3_5.index t (0 : Fin 2) * 5000 + 1 * (j 0).val = _; omega
  have hi1 : ((((cfg3.win 5).blk t).view.emb j : S50000x128.Idx) 1).val = (j 1).val := by
    show win3_5.index t (1 : Fin 2) * 128 + 1 * (j 1).val = _; omega
  exact relu_affine_of_rows (aggA V c) (featA V c) (wlA V c) (wrA V c) (rowOf (biasA V c))
    (iblk3 V c 0 t : Vec Ideal S5000x128 .f32) (iblk3 V c 1 t : Vec Ideal S5000x128 .f32)
    (iblk3 V c 2 t : Vec Ideal S128x128 .f32) (iblk3 V c 3 t : Vec Ideal S128x128 .f32)
    (rowOf (iblk3 V c 4 t : Vec Ideal S1x128 .f32)) j (((cfg3.win 5).blk t).view.emb j)
    (fun k => rows0 V c t _ _ hi0 rfl) (fun k => rows1 V c t _ _ hi0 rfl)
    (fun k => (whole2 V c t _).trans (congrArg (wlA V c) (by
      funext a; apply Fin.ext
      match a with
      | ⟨0, _⟩ => rfl
      | ⟨1, _⟩ => exact hi1.symm)))
    (fun k => (whole3 V c t _).trans (congrArg (wrA V c) (by
      funext a; apply Fin.ext
      match a with
      | ⟨0, _⟩ => rfl
      | ⟨1, _⟩ => exact hi1.symm)))
    ((whole4 V c t _).trans (congrArg (biasA V c) (by
      funext a; apply Fin.ext
      match a with
      | ⟨0, _⟩ => rfl
      | ⟨1, _⟩ => exact hi1.symm)))

/-- An index of the result array is in point `t`'s block iff each coordinate is in the block's range. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v92).slice (win3_5.rect t)).set ↔ _
  rw [View.set_slice_whole, Rect.mem_set_unit]
  exact Iff.rfl

/-- The ten row blocks tile the array: row `r` is in the block of point `r / 5000`. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, e0, e1, -⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE RESULT ARRAY after the region: the rectified layer of the arrays the region found. -/
theorem final (c : Dev nD) : (dat3 V c).arrAt 5 cfg3.N =
    (relu (affine (aggA V c) (featA V c) (wlA V c) (wrA V c) (rowOf (biasA V c)))) :=
  (dat3 V c).arrAt_eq_of_cover 5 _ (fun t _ => flushed_eq V c t) cover

end Cert.Sage.Region3

end
-- ==== Proof.Region4.lean ====
/-
  Layer 4's kernel over its whole grid: the array its ten blocks are written back to.

  The grid has ten points; point `t` reads rows 5000·t … 5000·t + 4999 of the aggregated features and of the node
  features, the whole of both weight matrices and of the bias row, and writes rows 5000·t … 5000·t + 4999 of the
  result. A block of the layer is the layer of the block's rows (rows of a product are products of rows), and the
  ten row blocks tile the 50000 rows, so the result array is the layer of the whole arrays as the region
  finds them — stated for any contents `V` of the buffers at the region's entry.
-/
import Idealize.ShloMosaic.Lib.Pipeline.Value
import proofs.«150988_j51238959841366_1_alg».proof.Proof.Gen.KernelIdeal.Frame
import proofs.«150988_j51238959841366_1_alg».proof.Proof.BlockLayer

set_option maxRecDepth 16384

noncomputable section

namespace Cert.Sage.Region4

open Idealize.ShloMosaic Idealize.ShloMosaic.TcCoe Idealize.ShloMosaic.ValueIdx Idealize.SL.Sem
open Idealize.ShloMosaic.Pipeline (Dat)
open Cert.Dense Cert.Sage Cert.Sage.Block Cert.KernelIdeal Cert.KernelIdeal.Gen

variable (V : (c : Dev nD) → (b : Ref sig .tc) → Buf (Elt Ideal) ((c : Thread nD τ).loc b))

/-- The aggregated features, as the region finds them. -/
abbrev aggA (c : Dev nD) : S50000x128.Idx → EReal := V c (Pipeline.arrRef spec4 0)
/-- The node features. -/
abbrev featA (c : Dev nD) : S50000x128.Idx → EReal := V c (Pipeline.arrRef spec4 1)
/-- The first weight matrix. -/
abbrev wlA (c : Dev nD) : S128x128.Idx → EReal := V c (Pipeline.arrRef spec4 2)
/-- The second weight matrix. -/
abbrev wrA (c : Dev nD) : S128x128.Idx → EReal := V c (Pipeline.arrRef spec4 3)
/-- The bias row. -/
abbrev biasA (c : Dev nD) : S1x128.Idx → EReal := V c (Pipeline.arrRef spec4 4)

theorem hz : (![0, 0] : Fin 2 → Nat) = fun _ => 0 := funext fun a => by fin_cases a <;> rfl

/-- The printed index maps, decided once over the ten grid points: the two feature windows and the result window
    are at row block `t`, column block 0; the weights and the bias stay at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ t.val < 10 :=
  (by decide +kernel : ∀ t : Fin grid4.N, _)

/-- Every row block is some point's. -/
theorem idx_onto : ∀ q : Fin 10, ∃ t : Fin cfg4.N, t.val = q.val :=
  (by decide +kernel : ∀ q : Fin 10, ∃ t : Fin grid4.N, t.val = q.val)

/-- The aggregated features' block at point `t`: rows 5000·t … of the array. -/
theorem rows0 (c : Dev nD) (t : Fin cfg4.N) (y : S5000x128.Idx) (i : S50000x128.Idx)
    (h0 : (i 0).val = 5000 * t.val + (y 0).val) (h1 : (i 1).val = (y 1).val) :
    (iblk4 V c 0 t : Vec Ideal S5000x128 .f32) y = (aggA V c) i := by
  obtain ⟨e0, e1, -⟩ := idx_facts t
  unfold iblk4
  rw [View.read_apply]
  refine congrArg (aggA V c) ?_
  funext a; apply Fin.ext
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- The node features' block at point `t`: the same rows of their array. -/
theorem rows1 (c : Dev nD) (t : Fin cfg4.N) (y : S5000x128.Idx) (i : S50000x128.Idx)
    (h0 : (i 0).val = 5000 * t.val + (y 0).val) (h1 : (i 1).val = (y 1).val) :
    (iblk4 V c 1 t : Vec Ideal S5000x128 .f32) y = (featA V c) i := by
  obtain ⟨-, -, e0, e1, -⟩ := idx_facts t
  unfold iblk4
  rw [View.read_apply]
  refine congrArg (featA V c) ?_
  funext a; apply Fin.ext
  match a with
  | ⟨0, _⟩ => show win4_1.index t (0 : Fin 2) * 5000 + 1 * (y 0).val = (i 0).val; omega
  | ⟨1, _⟩ => show win4_1.index t (1 : Fin 2) * 128 + 1 * (y 1).val = (i 1).val; omega

/-- The first weight matrix is read whole at every point. -/
theorem whole2 (c : Dev nD) (t : Fin cfg4.N) (y : S128x128.Idx) :
    (iblk4 V c 2 t : Vec Ideal S128x128 .f32) y = (wlA V c) y := by
  obtain ⟨-, -, -, -, e0, e1, -⟩ := idx_facts t
  unfold iblk4
  rw [View.read_apply]
  refine congrArg (wlA V c) ?_
  funext a; apply Fin.ext
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- So is the second. -/
theorem whole3 (c : Dev nD) (t : Fin cfg4.N) (y : S128x128.Idx) :
    (iblk4 V c 3 t : Vec Ideal S128x128 .f32) y = (wrA V c) y := by
  obtain ⟨-, -, -, -, -, -, e0, e1, -⟩ := idx_facts t
  unfold iblk4
  rw [View.read_apply]
  refine congrArg (wrA V c) ?_
  funext a; apply Fin.ext
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- And the bias row. -/
theorem whole4 (c : Dev nD) (t : Fin cfg4.N) (y : S1x128.Idx) :
    (iblk4 V c 4 t : Vec Ideal S1x128 .f32) y = (biasA V c) y := by
  obtain ⟨-, -, -, -, -, -, -, -, e0, e1, -⟩ := idx_facts t
  unfold iblk4
  rw [View.read_apply]
  refine congrArg (biasA V c) ?_
  funext a; apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

set_option maxHeartbeats 1000000 in
/-- What point `t` writes back is block `t` of the layer of the whole arrays. -/
theorem flushed_eq (c : Dev nD) (t : Fin cfg4.N) :
    (dat4 V c).flushed 5 t = ((cfg4.win 5).blk t).view.read (Elt Ideal)
      (affine (aggA V c) (featA V c) (wlA V c) (wrA V c) (rowOf (biasA V c))) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S1x128) hz]
  rw [pay4]
  obtain ⟨-, -, -, -, -, -, -, -, -, -, e0, e1, -⟩ := idx_facts t
  funext j
  rw [View.read_apply]
  have hi0 : ((((cfg4.win 5).blk t).view.emb j : S50000x128.Idx) 0).val = 5000 * t.val + (j 0).val := by
    show win4_5.index t (0 : Fin 2) * 5000 + 1 * (j 0).val = _; omega
  have hi1 : ((((cfg4.win 5).blk t).view.emb j : S50000x128.Idx) 1).val = (j 1).val := by
    show win4_5.index t (1 : Fin 2) * 128 + 1 * (j 1).val = _; omega
  exact affine_of_rows (aggA V c) (featA V c) (wlA V c) (wrA V c) (rowOf (biasA V c))
    (iblk4 V c 0 t : Vec Ideal S5000x128 .f32) (iblk4 V c 1 t : Vec Ideal S5000x128 .f32)
    (iblk4 V c 2 t : Vec Ideal S128x128 .f32) (iblk4 V c 3 t : Vec Ideal S128x128 .f32)
    (rowOf (iblk4 V c 4 t : Vec Ideal S1x128 .f32)) j (((cfg4.win 5).blk t).view.emb j)
    (fun k => rows0 V c t _ _ hi0 rfl) (fun k => rows1 V c t _ _ hi0 rfl)
    (fun k => (whole2 V c t _).trans (congrArg (wlA V c) (by
      funext a; apply Fin.ext
      match a with
      | ⟨0, _⟩ => rfl
      | ⟨1, _⟩ => exact hi1.symm)))
    (fun k => (whole3 V c t _).trans (congrArg (wrA V c) (by
      funext a; apply Fin.ext
      match a with
      | ⟨0, _⟩ => rfl
      | ⟨1, _⟩ => exact hi1.symm)))
    ((whole4 V c t _).trans (congrArg (biasA V c) (by
      funext a; apply Fin.ext
      match a with
      | ⟨0, _⟩ => rfl
      | ⟨1, _⟩ => exact hi1.symm)))

/-- An index of the result array is in point `t`'s block iff each coordinate is in the block's range. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v112).slice (win4_5.rect t)).set ↔ _
  rw [View.set_slice_whole, Rect.mem_set_unit]
  exact Iff.rfl

/-- The ten row blocks tile the array: row `r` is in the block of point `r / 5000`. -/
theorem cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, e0, e1, -⟩ := idx_facts t
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- THE RESULT ARRAY after the region: the layer of the arrays the region found. -/
theorem final (c : Dev nD) : (dat4 V c).arrAt 5 cfg4.N =
    (affine (aggA V c) (featA V c) (wlA V c) (wrA V c) (rowOf (biasA V c))) :=
  (dat4 V c).arrAt_eq_of_cover 5 _ (fun t _ => flushed_eq V c t) cover

end Cert.Sage.Region4

end
-- ==== Proof.Glue.lean ====
/-
  The host operations around the layers, named once.

  Both programs prepare each layer's inputs by the same operations of the same arguments: the two rows of the
  edge table as the edges' source and target nodes; the in-degree of every node (a scatter-add of ones at the
  targets), clamped below by one, inverted, kept as a column; the mean aggregation of a feature array `x` — the
  rows of `x` gathered at the sources (a negative source first wrapped by adding the number of nodes), added up
  at the targets, and multiplied by the inverse degree repeated along the features —; and slab `j` of the weight
  stacks and row `j` of the bias table for layer `j`. They are carried as these named functions and never
  opened: the comparison of the two programs only needs them to be the same functions on both sides.
-/
import proofs.«150988_j51238959841366_1_alg».proof.Proof.Gen.KernelIdeal
import Idealize.ShloMosaic.PureOps.Ideal

noncomputable section

namespace Cert.Sage.Glue

open Idealize.ShloMosaic Cert.KernelIdeal Cert.KernelIdeal.Facts₀

abbrev Edges := (⟨S2x600000, .i32⟩ : BufTy).Contents (Elt Ideal)
abbrev Ends := (⟨S600000, .i32⟩ : BufTy).Contents (Elt Ideal)
abbrev Feat := (⟨S50000x128, .f32⟩ : BufTy).Contents (Elt Ideal)
abbrev Col := (⟨S50000x1, .f32⟩ : BufTy).Contents (Elt Ideal)
abbrev Stack := (⟨S5x128x128, .f32⟩ : BufTy).Contents (Elt Ideal)
abbrev Mat := (⟨S128x128, .f32⟩ : BufTy).Contents (Elt Ideal)
abbrev Biases := (⟨S5x128, .f32⟩ : BufTy).Contents (Elt Ideal)
abbrev Row := (⟨S1x128, .f32⟩ : BufTy).Contents (Elt Ideal)

/-- The edges' source nodes: row 0 of the edge table. -/
def srcOf (e : Edges) : Ends :=
  shapeCast S600000 (extractStridedSlice S1x600000 ![0, 0] e slices_S2x600000_S1x600000_0_0) shapeCasts_S1x600000_S600000

/-- The edges' target nodes: row 1. -/
def dstOf (e : Edges) : Ends :=
  shapeCast S600000 (extractStridedSlice S1x600000 ![1, 0] e slices_S2x600000_S1x600000_1_0) shapeCasts_S1x600000_S600000

/-- One over the in-degree clamped below by one, as a column: ones added up at the targets, the maximum with
    one, the quotient of one by it. -/
def invDeg (d : Ends) : Col :=
  broadcastInDim S50000x1 ![0] bcast_S50000_S50000x1_0
    (Host.divf (broadcastInDim S50000 ![] bcast_S_S50000 (constant (F := Ideal) S_ .f32 0x3F800000#32))
      (maximumf
        (Host.scatterAdd scatter_S50000_S600000x1_S600000_n_0_0_1
          (broadcastInDim S50000 ![] bcast_S_S50000 (constant (F := Ideal) S_ .f32 0x00000000#32))
          (broadcastInDim S600000x1 ![0] bcast_S600000_S600000x1_0 d)
          (broadcastInDim S600000 ![] bcast_S_S600000 (constant (F := Ideal) S_ .f32 0x3F800000#32)))
        (broadcastInDim S50000 ![] bcast_S_S50000 (constant (F := Ideal) S_ .f32 0x3F800000#32))))

/-- The mean aggregation: rows of `x` gathered at the (wrapped) sources, added up at the targets, times the
    inverse-degree column repeated along the features. -/
def aggOf (s d : Ends) (ic : Col) (x : Feat) : Feat :=
  mulf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 d)
      (Host.gather gather_S50000x128_S600000x1_S600000x128_1_0_n_n_0_1_1128 x
        (broadcastInDim S600000x1 ![0] bcast_S600000_S600000x1_0
          (select (cmpi .slt s (broadcastInDim S600000 ![] bcast_S_S600000 (constantI S_ 32 0#32)))
            (addi s (broadcastInDim S600000 ![] bcast_S_S600000 (constantI S_ 32 50000#32))) s))))
    (broadcastInDim S50000x128 ![0, 1] bcast_S50000x1_S50000x128_0_1 ic)

/-- Layer 0's weight matrix out of a stack of five: slab 0, its leading unit axis dropped. -/
def slab0 (w : Stack) : Mat :=
  shapeCast S128x128 (extractStridedSlice S1x128x128 ![0, 0, 0] w slices_S5x128x128_S1x128x128_0_0_0) shapeCasts_S1x128x128_S128x128
/-- Layer 0's bias: row 0 of the bias table, kept as a 1×128 row. -/
def brow0 (b : Biases) : Row :=
  extractStridedSlice S1x128 ![0, 0] b slices_S5x128_S1x128_0_0

/-- Layer 1's weight matrix out of a stack of five: slab 1, its leading unit axis dropped. -/
def slab1 (w : Stack) : Mat :=
  shapeCast S128x128 (extractStridedSlice S1x128x128 ![1, 0, 0] w slices_S5x128x128_S1x128x128_1_0_0) shapeCasts_S1x128x128_S128x128
/-- Layer 1's bias: row 1 of the bias table, kept as a 1×128 row. -/
def brow1 (b : Biases) : Row :=
  extractStridedSlice S1x128 ![1, 0] b slices_S5x128_S1x128_1_0

/-- Layer 2's weight matrix out of a stack of five: slab 2, its leading unit axis dropped. -/
def slab2 (w : Stack) : Mat :=
  shapeCast S128x128 (extractStridedSlice S1x128x128 ![2, 0, 0] w slices_S5x128x128_S1x128x128_2_0_0) shapeCasts_S1x128x128_S128x128
/-- Layer 2's bias: row 2 of the bias table, kept as a 1×128 row. -/
def brow2 (b : Biases) : Row :=
  extractStridedSlice S1x128 ![2, 0] b slices_S5x128_S1x128_2_0

/-- Layer 3's weight matrix out of a stack of five: slab 3, its leading unit axis dropped. -/
def slab3 (w : Stack) : Mat :=
  shapeCast S128x128 (extractStridedSlice S1x128x128 ![3, 0, 0] w slices_S5x128x128_S1x128x128_3_0_0) shapeCasts_S1x128x128_S128x128
/-- Layer 3's bias: row 3 of the bias table, kept as a 1×128 row. -/
def brow3 (b : Biases) : Row :=
  extractStridedSlice S1x128 ![3, 0] b slices_S5x128_S1x128_3_0

/-- Layer 4's weight matrix out of a stack of five: slab 4, its leading unit axis dropped. -/
def slab4 (w : Stack) : Mat :=
  shapeCast S128x128 (extractStridedSlice S1x128x128 ![4, 0, 0] w slices_S5x128x128_S1x128x128_4_0_0) shapeCasts_S1x128x128_S128x128
/-- Layer 4's bias: row 4 of the bias table, kept as a 1×128 row. -/
def brow4 (b : Biases) : Row :=
  extractStridedSlice S1x128 ![4, 0] b slices_S5x128_S1x128_4_0

end Cert.Sage.Glue

end
-- ==== Proof.Net.lean ====
/-
  The five-layer network as one function of the five arguments.

  `aggr e` is the mean aggregation along the edge table `e`; layer `j` applies it to its input, then the affine
  map with slab `j` of the two weight stacks and row `j` of the bias table, then (in layers 0 to 3) the rectifier.
  Both programs are shown to end with `net e wl wr b x` in their result buffer.
-/
import proofs.«150988_j51238959841366_1_alg».proof.Proof.Glue
import proofs.«150988_j51238959841366_1_alg».proof.Proof.LibSageAffine
import proofs.«150988_j51238959841366_1_alg».proof.Proof.BlockLayer

noncomputable section

namespace Cert.Sage.Net

open Idealize.ShloMosaic Cert.Dense Cert.Sage Cert.Sage.Glue Cert.Sage.Block

/-- The mean aggregation along the edges of `e`. -/
def aggr (e : Edges) (h : Feat) : Feat := aggOf (srcOf e) (dstOf e) (invDeg (dstOf e)) h

/-- Layer 0 on whole arrays: aggregate, the affine map with slab 0 of each weight stack and row 0 of the biases, rectify. -/
def layer0 (e : Edges) (wl wr : Stack) (b : Biases) (h : Feat) : Feat :=
  hidden (M := 50000) (D := 128) (aggr e) (slab0 wl) (slab0 wr) (rowOf (brow0 b)) h

/-- Layer 1 on whole arrays: aggregate, the affine map with slab 1 of each weight stack and row 1 of the biases, rectify. -/
def layer1 (e : Edges) (wl wr : Stack) (b : Biases) (h : Feat) : Feat :=
  hidden (M := 50000) (D := 128) (aggr e) (slab1 wl) (slab1 wr) (rowOf (brow1 b)) h

/-- Layer 2 on whole arrays: aggregate, the affine map with slab 2 of each weight stack and row 2 of the biases, rectify. -/
def layer2 (e : Edges) (wl wr : Stack) (b : Biases) (h : Feat) : Feat :=
  hidden (M := 50000) (D := 128) (aggr e) (slab2 wl) (slab2 wr) (rowOf (brow2 b)) h

/-- Layer 3 on whole arrays: aggregate, the affine map with slab 3 of each weight stack and row 3 of the biases, rectify. -/
def layer3 (e : Edges) (wl wr : Stack) (b : Biases) (h : Feat) : Feat :=
  hidden (M := 50000) (D := 128) (aggr e) (slab3 wl) (slab3 wr) (rowOf (brow3 b)) h

/-- The last layer: the same with slab 4 and row 4, and no rectifier. -/
def layer4 (e : Edges) (wl wr : Stack) (b : Biases) (h : Feat) : Feat :=
  output (M := 50000) (D := 128) (aggr e) (slab4 wl) (slab4 wr) (rowOf (brow4 b)) h

/-- The network: the five layers in order. -/
def net (e : Edges) (wl wr : Stack) (b : Biases) (x : Feat) : Feat :=
  layer4 e wl wr b (layer3 e wl wr b (layer2 e wl wr b (layer1 e wl wr b (layer0 e wl wr b x))))

end Cert.Sage.Net

end
-- ==== Proof.Stretch.lean ====
/-
  The stretches of host operations between the layer kernels, read from any incoming buffer contents `W`.

  Before each layer's kernel the program prepares, by host operations, the kernel's five inputs: the mean
  aggregation of the previous layer's output (of the argument features for layer 0), that output itself (left
  where it is), slab `j` of each weight stack, and row `j` of the bias table reshaped to a vector and back to a
  row. The first stretch also computes, once, the edges' source and target nodes and the inverse-degree column,
  which the later stretches read again. Each lemma says what one buffer holds after a stretch as a function of
  what the buffers the stretch reads held before it; a buffer a stretch does not write keeps its contents.
-/
import Idealize.ShloMosaic.Lib.StableHlo.Run
import Idealize.ShloMosaic.Lib.Pipeline.Value
import proofs.«150988_j51238959841366_1_alg».proof.Proof.Gen.KernelIdeal.Launch
import proofs.«150988_j51238959841366_1_alg».proof.Proof.Net

set_option maxRecDepth 16384

noncomputable section

namespace Cert.Sage.Stretch

open Idealize.ShloMosaic Idealize.ShloMosaic.TcCoe Idealize.SL.Sem Idealize.ShloMosaic.StableHlo
open Cert.Sage Cert.KernelIdeal Cert.KernelIdeal.Gen

variable (W : Valuation τ sig (Elt Ideal))

/-! ## The stretch before layer 0: from the launch contents -/

theorem s0_src : StableHlo.after hostOps0 W (Proc.devRef .tc main_v1) = Glue.srcOf (W (Proc.devRef .tc main_arg1)) := by
  after_results; rfl
theorem s0_dst : StableHlo.after hostOps0 W (Proc.devRef .tc main_v3) = Glue.dstOf (W (Proc.devRef .tc main_arg1)) := by
  after_results; rfl
theorem s0_inv : StableHlo.after hostOps0 W (Proc.devRef .tc main_v12) = Glue.invDeg (Glue.dstOf (W (Proc.devRef .tc main_arg1))) := by
  after_results; rfl
theorem s0_agg : StableHlo.after hostOps0 W (Proc.devRef .tc main_v24) = Net.aggr (W (Proc.devRef .tc main_arg1)) (W (Proc.devRef .tc main_arg0)) := by
  after_results_simp <;> rfl
theorem s0_x : StableHlo.after hostOps0 W (Proc.devRef .tc main_arg0) = W (Proc.devRef .tc main_arg0) := by
  after_results
theorem s0_wl : StableHlo.after hostOps0 W (Proc.devRef .tc main_v26) = Glue.slab0 (W (Proc.devRef .tc main_arg2)) := by
  after_results; rfl
theorem s0_wr : StableHlo.after hostOps0 W (Proc.devRef .tc main_v28) = Glue.slab0 (W (Proc.devRef .tc main_arg4)) := by
  after_results; rfl
theorem s0_b : StableHlo.after hostOps0 W (Proc.devRef .tc main_v31) = Glue.brow0 (W (Proc.devRef .tc main_arg3)) := by
  after_results
  exact shapeCast_shapeCast _ _ _
theorem s0_keep_main_arg2 : StableHlo.after hostOps0 W (Proc.devRef .tc main_arg2) = W (Proc.devRef .tc main_arg2) := by
  after_results
theorem s0_keep_main_arg3 : StableHlo.after hostOps0 W (Proc.devRef .tc main_arg3) = W (Proc.devRef .tc main_arg3) := by
  after_results
theorem s0_keep_main_arg4 : StableHlo.after hostOps0 W (Proc.devRef .tc main_arg4) = W (Proc.devRef .tc main_arg4) := by
  after_results

/-! ## The stretch before layer 1: from the contents layer 0's kernel leaves -/

theorem s1_agg : StableHlo.after hostOps1 W (Proc.devRef .tc main_v44)
    = Glue.aggOf (W (Proc.devRef .tc main_v1)) (W (Proc.devRef .tc main_v3)) (W (Proc.devRef .tc main_v12)) (W (Proc.devRef .tc main_v32)) := by
  after_results_simp <;> rfl
theorem s1_x : StableHlo.after hostOps1 W (Proc.devRef .tc main_v32) = W (Proc.devRef .tc main_v32) := by
  after_results
theorem s1_wl : StableHlo.after hostOps1 W (Proc.devRef .tc main_v46) = Glue.slab1 (W (Proc.devRef .tc main_arg2)) := by
  after_results; rfl
theorem s1_wr : StableHlo.after hostOps1 W (Proc.devRef .tc main_v48) = Glue.slab1 (W (Proc.devRef .tc main_arg4)) := by
  after_results; rfl
theorem s1_b : StableHlo.after hostOps1 W (Proc.devRef .tc main_v51) = Glue.brow1 (W (Proc.devRef .tc main_arg3)) := by
  after_results
  exact shapeCast_shapeCast _ _ _
theorem s1_keep_main_v1 : StableHlo.after hostOps1 W (Proc.devRef .tc main_v1) = W (Proc.devRef .tc main_v1) := by
  after_results
theorem s1_keep_main_v3 : StableHlo.after hostOps1 W (Proc.devRef .tc main_v3) = W (Proc.devRef .tc main_v3) := by
  after_results
theorem s1_keep_main_v12 : StableHlo.after hostOps1 W (Proc.devRef .tc main_v12) = W (Proc.devRef .tc main_v12) := by
  after_results
theorem s1_keep_main_arg2 : StableHlo.after hostOps1 W (Proc.devRef .tc main_arg2) = W (Proc.devRef .tc main_arg2) := by
  after_results
theorem s1_keep_main_arg3 : StableHlo.after hostOps1 W (Proc.devRef .tc main_arg3) = W (Proc.devRef .tc main_arg3) := by
  after_results
theorem s1_keep_main_arg4 : StableHlo.after hostOps1 W (Proc.devRef .tc main_arg4) = W (Proc.devRef .tc main_arg4) := by
  after_results

/-! ## The stretch before layer 2: from the contents layer 1's kernel leaves -/

theorem s2_agg : StableHlo.after hostOps2 W (Proc.devRef .tc main_v64)
    = Glue.aggOf (W (Proc.devRef .tc main_v1)) (W (Proc.devRef .tc main_v3)) (W (Proc.devRef .tc main_v12)) (W (Proc.devRef .tc main_v52)) := by
  after_results_simp <;> rfl
theorem s2_x : StableHlo.after hostOps2 W (Proc.devRef .tc main_v52) = W (Proc.devRef .tc main_v52) := by
  after_results
theorem s2_wl : StableHlo.after hostOps2 W (Proc.devRef .tc main_v66) = Glue.slab2 (W (Proc.devRef .tc main_arg2)) := by
  after_results; rfl
theorem s2_wr : StableHlo.after hostOps2 W (Proc.devRef .tc main_v68) = Glue.slab2 (W (Proc.devRef .tc main_arg4)) := by
  after_results; rfl
theorem s2_b : StableHlo.after hostOps2 W (Proc.devRef .tc main_v71) = Glue.brow2 (W (Proc.devRef .tc main_arg3)) := by
  after_results
  exact shapeCast_shapeCast _ _ _
theorem s2_keep_main_v1 : StableHlo.after hostOps2 W (Proc.devRef .tc main_v1) = W (Proc.devRef .tc main_v1) := by
  after_results
theorem s2_keep_main_v3 : StableHlo.after hostOps2 W (Proc.devRef .tc main_v3) = W (Proc.devRef .tc main_v3) := by
  after_results
theorem s2_keep_main_v12 : StableHlo.after hostOps2 W (Proc.devRef .tc main_v12) = W (Proc.devRef .tc main_v12) := by
  after_results
theorem s2_keep_main_arg2 : StableHlo.after hostOps2 W (Proc.devRef .tc main_arg2) = W (Proc.devRef .tc main_arg2) := by
  after_results
theorem s2_keep_main_arg3 : StableHlo.after hostOps2 W (Proc.devRef .tc main_arg3) = W (Proc.devRef .tc main_arg3) := by
  after_results
theorem s2_keep_main_arg4 : StableHlo.after hostOps2 W (Proc.devRef .tc main_arg4) = W (Proc.devRef .tc main_arg4) := by
  after_results

/-! ## The stretch before layer 3: from the contents layer 2's kernel leaves -/

theorem s3_agg : StableHlo.after hostOps3 W (Proc.devRef .tc main_v84)
    = Glue.aggOf (W (Proc.devRef .tc main_v1)) (W (Proc.devRef .tc main_v3)) (W (Proc.devRef .tc main_v12)) (W (Proc.devRef .tc main_v72)) := by
  after_results_simp <;> rfl
theorem s3_x : StableHlo.after hostOps3 W (Proc.devRef .tc main_v72) = W (Proc.devRef .tc main_v72) := by
  after_results
theorem s3_wl : StableHlo.after hostOps3 W (Proc.devRef .tc main_v86) = Glue.slab3 (W (Proc.devRef .tc main_arg2)) := by
  after_results; rfl
theorem s3_wr : StableHlo.after hostOps3 W (Proc.devRef .tc main_v88) = Glue.slab3 (W (Proc.devRef .tc main_arg4)) := by
  after_results; rfl
theorem s3_b : StableHlo.after hostOps3 W (Proc.devRef .tc main_v91) = Glue.brow3 (W (Proc.devRef .tc main_arg3)) := by
  after_results
  exact shapeCast_shapeCast _ _ _
theorem s3_keep_main_v1 : StableHlo.after hostOps3 W (Proc.devRef .tc main_v1) = W (Proc.devRef .tc main_v1) := by
  after_results
theorem s3_keep_main_v3 : StableHlo.after hostOps3 W (Proc.devRef .tc main_v3) = W (Proc.devRef .tc main_v3) := by
  after_results
theorem s3_keep_main_v12 : StableHlo.after hostOps3 W (Proc.devRef .tc main_v12) = W (Proc.devRef .tc main_v12) := by
  after_results
theorem s3_keep_main_arg2 : StableHlo.after hostOps3 W (Proc.devRef .tc main_arg2) = W (Proc.devRef .tc main_arg2) := by
  after_results
theorem s3_keep_main_arg3 : StableHlo.after hostOps3 W (Proc.devRef .tc main_arg3) = W (Proc.devRef .tc main_arg3) := by
  after_results
theorem s3_keep_main_arg4 : StableHlo.after hostOps3 W (Proc.devRef .tc main_arg4) = W (Proc.devRef .tc main_arg4) := by
  after_results

/-! ## The stretch before layer 4: from the contents layer 3's kernel leaves -/

theorem s4_agg : StableHlo.after hostOps4 W (Proc.devRef .tc main_v104)
    = Glue.aggOf (W (Proc.devRef .tc main_v1)) (W (Proc.devRef .tc main_v3)) (W (Proc.devRef .tc main_v12)) (W (Proc.devRef .tc main_v92)) := by
  after_results_simp <;> rfl
theorem s4_x : StableHlo.after hostOps4 W (Proc.devRef .tc main_v92) = W (Proc.devRef .tc main_v92) := by
  after_results
theorem s4_wl : StableHlo.after hostOps4 W (Proc.devRef .tc main_v106) = Glue.slab4 (W (Proc.devRef .tc main_arg2)) := by
  after_results; rfl
theorem s4_wr : StableHlo.after hostOps4 W (Proc.devRef .tc main_v108) = Glue.slab4 (W (Proc.devRef .tc main_arg4)) := by
  after_results; rfl
theorem s4_b : StableHlo.after hostOps4 W (Proc.devRef .tc main_v111) = Glue.brow4 (W (Proc.devRef .tc main_arg3)) := by
  after_results
  exact shapeCast_shapeCast _ _ _
theorem s4_keep_main_v1 : StableHlo.after hostOps4 W (Proc.devRef .tc main_v1) = W (Proc.devRef .tc main_v1) := by
  after_results
theorem s4_keep_main_v3 : StableHlo.after hostOps4 W (Proc.devRef .tc main_v3) = W (Proc.devRef .tc main_v3) := by
  after_results
theorem s4_keep_main_v12 : StableHlo.after hostOps4 W (Proc.devRef .tc main_v12) = W (Proc.devRef .tc main_v12) := by
  after_results
theorem s4_keep_main_arg2 : StableHlo.after hostOps4 W (Proc.devRef .tc main_arg2) = W (Proc.devRef .tc main_arg2) := by
  after_results
theorem s4_keep_main_arg3 : StableHlo.after hostOps4 W (Proc.devRef .tc main_arg3) = W (Proc.devRef .tc main_arg3) := by
  after_results
theorem s4_keep_main_arg4 : StableHlo.after hostOps4 W (Proc.devRef .tc main_arg4) = W (Proc.devRef .tc main_arg4) := by
  after_results

end Cert.Sage.Stretch

end
-- ==== Proof.Walk.lean ====
/-
  The kernel program's result buffer, read through the fold of its ten segments.

  Write `f0` for the argument features and `f(j+1)` for layer `j` of the network applied to `f j`. Walking the
  fold: the first stretch of host operations computes the edges' ends and the inverse-degree column and
  prepares layer 0's inputs; layer `j`'s kernel leaves `f(j+1)` in its result buffer (its ten row blocks are the
  layer of the whole arrays it found) and touches nothing else; the stretch before layer `j+1` aggregates
  `f(j+1)`, slices the weights and the bias, and leaves the edges' ends, the inverse-degree column and the
  arguments where they are. After the fifth kernel the result buffer holds `f5`, the network of the arguments.
-/
import proofs.«150988_j51238959841366_1_alg».proof.Proof.Gen.KernelIdeal.Frame
import proofs.«150988_j51238959841366_1_alg».proof.Proof.Region0
import proofs.«150988_j51238959841366_1_alg».proof.Proof.Region1
import proofs.«150988_j51238959841366_1_alg».proof.Proof.Region2
import proofs.«150988_j51238959841366_1_alg».proof.Proof.Region3
import proofs.«150988_j51238959841366_1_alg».proof.Proof.Region4
import proofs.«150988_j51238959841366_1_alg».proof.Proof.Net
import proofs.«150988_j51238959841366_1_alg».proof.Proof.Stretch

set_option maxRecDepth 16384

noncomputable section

namespace Cert.Sage.Walk

open Idealize.ShloMosaic Idealize.ShloMosaic.TcCoe Idealize.SL.Sem
open Cert.Dense Cert.Sage Cert.KernelIdeal Cert.KernelIdeal.Gen

variable (m : (ℓ : Loc nD τ sig) → Buf (Elt Ideal) ℓ) (ρ : Dev nD → PrngReg) (c : Dev nD)

/-- The five arguments as launched. -/
abbrev aX : Glue.Feat := m ((c : Thread nD τ).loc main_arg0)
abbrev aE : Glue.Edges := m ((c : Thread nD τ).loc main_arg1)
abbrev aWl : Glue.Stack := m ((c : Thread nD τ).loc main_arg2)
abbrev aB : Glue.Biases := m ((c : Thread nD τ).loc main_arg3)
abbrev aWr : Glue.Stack := m ((c : Thread nD τ).loc main_arg4)

/-- The features after each layer. -/
def f0 : Glue.Feat := aX m c
def f1 : Glue.Feat := Net.layer0 (aE m c) (aWl m c) (aWr m c) (aB m c) (f0 m c)
def f2 : Glue.Feat := Net.layer1 (aE m c) (aWl m c) (aWr m c) (aB m c) (f1 m c)
def f3 : Glue.Feat := Net.layer2 (aE m c) (aWl m c) (aWr m c) (aB m c) (f2 m c)
def f4 : Glue.Feat := Net.layer3 (aE m c) (aWl m c) (aWr m c) (aB m c) (f3 m c)
def f5 : Glue.Feat := Net.layer4 (aE m c) (aWl m c) (aWr m c) (aB m c) (f4 m c)

/-- What every boundary after the first stretch keeps: the edges' ends, the inverse-degree column, and the
    weight and bias arguments. -/
structure Carried (W : Valuation τ sig (Elt Ideal)) : Prop where
  src : W (Proc.devRef .tc main_v1) = Glue.srcOf (aE m c)
  dst : W (Proc.devRef .tc main_v3) = Glue.dstOf (aE m c)
  inv : W (Proc.devRef .tc main_v12) = Glue.invDeg (Glue.dstOf (aE m c))
  wl : W (Proc.devRef .tc main_arg2) = aWl m c
  b : W (Proc.devRef .tc main_arg3) = aB m c
  wr : W (Proc.devRef .tc main_arg4) = aWr m c

/-! ## Layer 0: the stretch before it, its kernel -/

/-- After the first stretch: the edges' ends and the inverse-degree column are computed, the weight and bias
    arguments untouched. -/
theorem carried1 : Carried m c (W1 m ρ c) :=
  ⟨Stretch.s0_src (W0 m ρ c), Stretch.s0_dst (W0 m ρ c), Stretch.s0_inv (W0 m ρ c),
   Stretch.s0_keep_main_arg2 (W0 m ρ c), Stretch.s0_keep_main_arg3 (W0 m ρ c), Stretch.s0_keep_main_arg4 (W0 m ρ c)⟩

theorem e0_agg : W1 m ρ c (Proc.devRef .tc main_v24) = Net.aggr (aE m c) (f0 m c) := Stretch.s0_agg (W0 m ρ c)
theorem e0_x : W1 m ρ c (Proc.devRef .tc main_arg0) = f0 m c := Stretch.s0_x (W0 m ρ c)
theorem e0_wl : W1 m ρ c (Proc.devRef .tc main_v26) = Glue.slab0 (aWl m c) := Stretch.s0_wl (W0 m ρ c)
theorem e0_wr : W1 m ρ c (Proc.devRef .tc main_v28) = Glue.slab0 (aWr m c) := Stretch.s0_wr (W0 m ρ c)
theorem e0_b : W1 m ρ c (Proc.devRef .tc main_v31) = Glue.brow0 (aB m c) := Stretch.s0_b (W0 m ρ c)

/-- Layer 0's kernel leaves, in its result buffer, layer 0 of the network applied to the features it found. -/
theorem exit0 : W2 m ρ c (Proc.devRef .tc main_v32) = f1 m c := by
  refine (W2_arr m ρ c 5).trans ?_
  rw [Region0.final (V1 m ρ) c]
  show relu (affine (W1 m ρ c (Proc.devRef .tc main_v24) : S50000x128.Idx → EReal) (W1 m ρ c (Proc.devRef .tc main_arg0) : S50000x128.Idx → EReal)
      (W1 m ρ c (Proc.devRef .tc main_v26) : S128x128.Idx → EReal) (W1 m ρ c (Proc.devRef .tc main_v28) : S128x128.Idx → EReal)
      (Block.rowOf (W1 m ρ c (Proc.devRef .tc main_v31) : S1x128.Idx → EReal))) = _
  rw [e0_agg m ρ c, e0_x m ρ c, e0_wl m ρ c, e0_wr m ρ c, e0_b m ρ c]
  rfl

/-- Layer 0's kernel writes none of the carried buffers. -/
theorem carried2 : Carried m c (W2 m ρ c) :=
  ⟨(W2_of_ne m ρ c main_v1 (by decide)).trans (carried1 m ρ c).src,
   (W2_of_ne m ρ c main_v3 (by decide)).trans (carried1 m ρ c).dst,
   (W2_of_ne m ρ c main_v12 (by decide)).trans (carried1 m ρ c).inv,
   (W2_of_ne m ρ c main_arg2 (by decide)).trans (carried1 m ρ c).wl,
   (W2_of_ne m ρ c main_arg3 (by decide)).trans (carried1 m ρ c).b,
   (W2_of_ne m ρ c main_arg4 (by decide)).trans (carried1 m ρ c).wr⟩

/-! ## Layer 1: the stretch before it, its kernel -/

/-- The stretch before layer 1 writes none of the carried buffers. -/
theorem carried3 : Carried m c (W3 m ρ c) :=
  ⟨(Stretch.s1_keep_main_v1 (W2 m ρ c)).trans (carried2 m ρ c).src,
   (Stretch.s1_keep_main_v3 (W2 m ρ c)).trans (carried2 m ρ c).dst,
   (Stretch.s1_keep_main_v12 (W2 m ρ c)).trans (carried2 m ρ c).inv,
   (Stretch.s1_keep_main_arg2 (W2 m ρ c)).trans (carried2 m ρ c).wl,
   (Stretch.s1_keep_main_arg3 (W2 m ρ c)).trans (carried2 m ρ c).b,
   (Stretch.s1_keep_main_arg4 (W2 m ρ c)).trans (carried2 m ρ c).wr⟩

theorem e1_agg : W3 m ρ c (Proc.devRef .tc main_v44) = Net.aggr (aE m c) (f1 m c) :=
  (Stretch.s1_agg (W2 m ρ c)).trans (by rw [(carried2 m ρ c).src, (carried2 m ρ c).dst, (carried2 m ρ c).inv, exit0 m ρ c]; rfl)
theorem e1_x : W3 m ρ c (Proc.devRef .tc main_v32) = f1 m c := (Stretch.s1_x (W2 m ρ c)).trans (exit0 m ρ c)
theorem e1_wl : W3 m ρ c (Proc.devRef .tc main_v46) = Glue.slab1 (aWl m c) :=
  (Stretch.s1_wl (W2 m ρ c)).trans (congrArg Glue.slab1 (carried2 m ρ c).wl)
theorem e1_wr : W3 m ρ c (Proc.devRef .tc main_v48) = Glue.slab1 (aWr m c) :=
  (Stretch.s1_wr (W2 m ρ c)).trans (congrArg Glue.slab1 (carried2 m ρ c).wr)
theorem e1_b : W3 m ρ c (Proc.devRef .tc main_v51) = Glue.brow1 (aB m c) :=
  (Stretch.s1_b (W2 m ρ c)).trans (congrArg Glue.brow1 (carried2 m ρ c).b)

/-- Layer 1's kernel leaves, in its result buffer, layer 1 of the network applied to the features it found. -/
theorem exit1 : W4 m ρ c (Proc.devRef .tc main_v52) = f2 m c := by
  refine (W4_arr m ρ c 5).trans ?_
  rw [Region1.final (V3 m ρ) c]
  show relu (affine (W3 m ρ c (Proc.devRef .tc main_v44) : S50000x128.Idx → EReal) (W3 m ρ c (Proc.devRef .tc main_v32) : S50000x128.Idx → EReal)
      (W3 m ρ c (Proc.devRef .tc main_v46) : S128x128.Idx → EReal) (W3 m ρ c (Proc.devRef .tc main_v48) : S128x128.Idx → EReal)
      (Block.rowOf (W3 m ρ c (Proc.devRef .tc main_v51) : S1x128.Idx → EReal))) = _
  rw [e1_agg m ρ c, e1_x m ρ c, e1_wl m ρ c, e1_wr m ρ c, e1_b m ρ c]
  rfl

/-- Layer 1's kernel writes none of the carried buffers. -/
theorem carried4 : Carried m c (W4 m ρ c) :=
  ⟨(W4_of_ne m ρ c main_v1 (by decide)).trans (carried3 m ρ c).src,
   (W4_of_ne m ρ c main_v3 (by decide)).trans (carried3 m ρ c).dst,
   (W4_of_ne m ρ c main_v12 (by decide)).trans (carried3 m ρ c).inv,
   (W4_of_ne m ρ c main_arg2 (by decide)).trans (carried3 m ρ c).wl,
   (W4_of_ne m ρ c main_arg3 (by decide)).trans (carried3 m ρ c).b,
   (W4_of_ne m ρ c main_arg4 (by decide)).trans (carried3 m ρ c).wr⟩

/-! ## Layer 2: the stretch before it, its kernel -/

/-- The stretch before layer 2 writes none of the carried buffers. -/
theorem carried5 : Carried m c (W5 m ρ c) :=
  ⟨(Stretch.s2_keep_main_v1 (W4 m ρ c)).trans (carried4 m ρ c).src,
   (Stretch.s2_keep_main_v3 (W4 m ρ c)).trans (carried4 m ρ c).dst,
   (Stretch.s2_keep_main_v12 (W4 m ρ c)).trans (carried4 m ρ c).inv,
   (Stretch.s2_keep_main_arg2 (W4 m ρ c)).trans (carried4 m ρ c).wl,
   (Stretch.s2_keep_main_arg3 (W4 m ρ c)).trans (carried4 m ρ c).b,
   (Stretch.s2_keep_main_arg4 (W4 m ρ c)).trans (carried4 m ρ c).wr⟩

theorem e2_agg : W5 m ρ c (Proc.devRef .tc main_v64) = Net.aggr (aE m c) (f2 m c) :=
  (Stretch.s2_agg (W4 m ρ c)).trans (by rw [(carried4 m ρ c).src, (carried4 m ρ c).dst, (carried4 m ρ c).inv, exit1 m ρ c]; rfl)
theorem e2_x : W5 m ρ c (Proc.devRef .tc main_v52) = f2 m c := (Stretch.s2_x (W4 m ρ c)).trans (exit1 m ρ c)
theorem e2_wl : W5 m ρ c (Proc.devRef .tc main_v66) = Glue.slab2 (aWl m c) :=
  (Stretch.s2_wl (W4 m ρ c)).trans (congrArg Glue.slab2 (carried4 m ρ c).wl)
theorem e2_wr : W5 m ρ c (Proc.devRef .tc main_v68) = Glue.slab2 (aWr m c) :=
  (Stretch.s2_wr (W4 m ρ c)).trans (congrArg Glue.slab2 (carried4 m ρ c).wr)
theorem e2_b : W5 m ρ c (Proc.devRef .tc main_v71) = Glue.brow2 (aB m c) :=
  (Stretch.s2_b (W4 m ρ c)).trans (congrArg Glue.brow2 (carried4 m ρ c).b)

/-- Layer 2's kernel leaves, in its result buffer, layer 2 of the network applied to the features it found. -/
theorem exit2 : W6 m ρ c (Proc.devRef .tc main_v72) = f3 m c := by
  refine (W6_arr m ρ c 5).trans ?_
  rw [Region2.final (V5 m ρ) c]
  show relu (affine (W5 m ρ c (Proc.devRef .tc main_v64) : S50000x128.Idx → EReal) (W5 m ρ c (Proc.devRef .tc main_v52) : S50000x128.Idx → EReal)
      (W5 m ρ c (Proc.devRef .tc main_v66) : S128x128.Idx → EReal) (W5 m ρ c (Proc.devRef .tc main_v68) : S128x128.Idx → EReal)
      (Block.rowOf (W5 m ρ c (Proc.devRef .tc main_v71) : S1x128.Idx → EReal))) = _
  rw [e2_agg m ρ c, e2_x m ρ c, e2_wl m ρ c, e2_wr m ρ c, e2_b m ρ c]
  rfl

/-- Layer 2's kernel writes none of the carried buffers. -/
theorem carried6 : Carried m c (W6 m ρ c) :=
  ⟨(W6_of_ne m ρ c main_v1 (by decide)).trans (carried5 m ρ c).src,
   (W6_of_ne m ρ c main_v3 (by decide)).trans (carried5 m ρ c).dst,
   (W6_of_ne m ρ c main_v12 (by decide)).trans (carried5 m ρ c).inv,
   (W6_of_ne m ρ c main_arg2 (by decide)).trans (carried5 m ρ c).wl,
   (W6_of_ne m ρ c main_arg3 (by decide)).trans (carried5 m ρ c).b,
   (W6_of_ne m ρ c main_arg4 (by decide)).trans (carried5 m ρ c).wr⟩

/-! ## Layer 3: the stretch before it, its kernel -/

/-- The stretch before layer 3 writes none of the carried buffers. -/
theorem carried7 : Carried m c (W7 m ρ c) :=
  ⟨(Stretch.s3_keep_main_v1 (W6 m ρ c)).trans (carried6 m ρ c).src,
   (Stretch.s3_keep_main_v3 (W6 m ρ c)).trans (carried6 m ρ c).dst,
   (Stretch.s3_keep_main_v12 (W6 m ρ c)).trans (carried6 m ρ c).inv,
   (Stretch.s3_keep_main_arg2 (W6 m ρ c)).trans (carried6 m ρ c).wl,
   (Stretch.s3_keep_main_arg3 (W6 m ρ c)).trans (carried6 m ρ c).b,
   (Stretch.s3_keep_main_arg4 (W6 m ρ c)).trans (carried6 m ρ c).wr⟩

theorem e3_agg : W7 m ρ c (Proc.devRef .tc main_v84) = Net.aggr (aE m c) (f3 m c) :=
  (Stretch.s3_agg (W6 m ρ c)).trans (by rw [(carried6 m ρ c).src, (carried6 m ρ c).dst, (carried6 m ρ c).inv, exit2 m ρ c]; rfl)
theorem e3_x : W7 m ρ c (Proc.devRef .tc main_v72) = f3 m c := (Stretch.s3_x (W6 m ρ c)).trans (exit2 m ρ c)
theorem e3_wl : W7 m ρ c (Proc.devRef .tc main_v86) = Glue.slab3 (aWl m c) :=
  (Stretch.s3_wl (W6 m ρ c)).trans (congrArg Glue.slab3 (carried6 m ρ c).wl)
theorem e3_wr : W7 m ρ c (Proc.devRef .tc main_v88) = Glue.slab3 (aWr m c) :=
  (Stretch.s3_wr (W6 m ρ c)).trans (congrArg Glue.slab3 (carried6 m ρ c).wr)
theorem e3_b : W7 m ρ c (Proc.devRef .tc main_v91) = Glue.brow3 (aB m c) :=
  (Stretch.s3_b (W6 m ρ c)).trans (congrArg Glue.brow3 (carried6 m ρ c).b)

/-- Layer 3's kernel leaves, in its result buffer, layer 3 of the network applied to the features it found. -/
theorem exit3 : W8 m ρ c (Proc.devRef .tc main_v92) = f4 m c := by
  refine (W8_arr m ρ c 5).trans ?_
  rw [Region3.final (V7 m ρ) c]
  show relu (affine (W7 m ρ c (Proc.devRef .tc main_v84) : S50000x128.Idx → EReal) (W7 m ρ c (Proc.devRef .tc main_v72) : S50000x128.Idx → EReal)
      (W7 m ρ c (Proc.devRef .tc main_v86) : S128x128.Idx → EReal) (W7 m ρ c (Proc.devRef .tc main_v88) : S128x128.Idx → EReal)
      (Block.rowOf (W7 m ρ c (Proc.devRef .tc main_v91) : S1x128.Idx → EReal))) = _
  rw [e3_agg m ρ c, e3_x m ρ c, e3_wl m ρ c, e3_wr m ρ c, e3_b m ρ c]
  rfl

/-- Layer 3's kernel writes none of the carried buffers. -/
theorem carried8 : Carried m c (W8 m ρ c) :=
  ⟨(W8_of_ne m ρ c main_v1 (by decide)).trans (carried7 m ρ c).src,
   (W8_of_ne m ρ c main_v3 (by decide)).trans (carried7 m ρ c).dst,
   (W8_of_ne m ρ c main_v12 (by decide)).trans (carried7 m ρ c).inv,
   (W8_of_ne m ρ c main_arg2 (by decide)).trans (carried7 m ρ c).wl,
   (W8_of_ne m ρ c main_arg3 (by decide)).trans (carried7 m ρ c).b,
   (W8_of_ne m ρ c main_arg4 (by decide)).trans (carried7 m ρ c).wr⟩

/-! ## Layer 4: the stretch before it, its kernel -/

/-- The stretch before layer 4 writes none of the carried buffers. -/
theorem carried9 : Carried m c (W9 m ρ c) :=
  ⟨(Stretch.s4_keep_main_v1 (W8 m ρ c)).trans (carried8 m ρ c).src,
   (Stretch.s4_keep_main_v3 (W8 m ρ c)).trans (carried8 m ρ c).dst,
   (Stretch.s4_keep_main_v12 (W8 m ρ c)).trans (carried8 m ρ c).inv,
   (Stretch.s4_keep_main_arg2 (W8 m ρ c)).trans (carried8 m ρ c).wl,
   (Stretch.s4_keep_main_arg3 (W8 m ρ c)).trans (carried8 m ρ c).b,
   (Stretch.s4_keep_main_arg4 (W8 m ρ c)).trans (carried8 m ρ c).wr⟩

theorem e4_agg : W9 m ρ c (Proc.devRef .tc main_v104) = Net.aggr (aE m c) (f4 m c) :=
  (Stretch.s4_agg (W8 m ρ c)).trans (by rw [(carried8 m ρ c).src, (carried8 m ρ c).dst, (carried8 m ρ c).inv, exit3 m ρ c]; rfl)
theorem e4_x : W9 m ρ c (Proc.devRef .tc main_v92) = f4 m c := (Stretch.s4_x (W8 m ρ c)).trans (exit3 m ρ c)
theorem e4_wl : W9 m ρ c (Proc.devRef .tc main_v106) = Glue.slab4 (aWl m c) :=
  (Stretch.s4_wl (W8 m ρ c)).trans (congrArg Glue.slab4 (carried8 m ρ c).wl)
theorem e4_wr : W9 m ρ c (Proc.devRef .tc main_v108) = Glue.slab4 (aWr m c) :=
  (Stretch.s4_wr (W8 m ρ c)).trans (congrArg Glue.slab4 (carried8 m ρ c).wr)
theorem e4_b : W9 m ρ c (Proc.devRef .tc main_v111) = Glue.brow4 (aB m c) :=
  (Stretch.s4_b (W8 m ρ c)).trans (congrArg Glue.brow4 (carried8 m ρ c).b)

/-- Layer 4's kernel leaves, in its result buffer, layer 4 of the network applied to the features it found. -/
theorem exit4 : W10 m ρ c (Proc.devRef .tc main_v112) = f5 m c := by
  refine (W10_arr m ρ c 5).trans ?_
  rw [Region4.final (V9 m ρ) c]
  show (affine (W9 m ρ c (Proc.devRef .tc main_v104) : S50000x128.Idx → EReal) (W9 m ρ c (Proc.devRef .tc main_v92) : S50000x128.Idx → EReal)
      (W9 m ρ c (Proc.devRef .tc main_v106) : S128x128.Idx → EReal) (W9 m ρ c (Proc.devRef .tc main_v108) : S128x128.Idx → EReal)
      (Block.rowOf (W9 m ρ c (Proc.devRef .tc main_v111) : S1x128.Idx → EReal))) = _
  rw [e4_agg m ρ c, e4_x m ρ c, e4_wl m ρ c, e4_wr m ρ c, e4_b m ρ c]
  rfl

/-- Layer 4's kernel writes none of the carried buffers. -/
theorem carried10 : Carried m c (W10 m ρ c) :=
  ⟨(W10_of_ne m ρ c main_v1 (by decide)).trans (carried9 m ρ c).src,
   (W10_of_ne m ρ c main_v3 (by decide)).trans (carried9 m ρ c).dst,
   (W10_of_ne m ρ c main_v12 (by decide)).trans (carried9 m ρ c).inv,
   (W10_of_ne m ρ c main_arg2 (by decide)).trans (carried9 m ρ c).wl,
   (W10_of_ne m ρ c main_arg3 (by decide)).trans (carried9 m ρ c).b,
   (W10_of_ne m ρ c main_arg4 (by decide)).trans (carried9 m ρ c).wr⟩

/-! ## The result -/

/-- After the last kernel the result buffer holds the network of the arguments. -/
theorem result : W10 m ρ c (Proc.devRef .tc main_v112) = Net.net (aE m c) (aWl m c) (aWr m c) (aB m c) (aX m c) :=
  exit4 m ρ c

end Cert.Sage.Walk

end
-- ==== Proof.RefValue.lean ====
/-
  The reference program's result is the network of the arguments.

  The reference computes each layer on whole arrays: the mean aggregation of the layer's input, its product with
  slab `j` of the first weight stack (a `dot_general` contracting the feature axis), plus row `j` of the bias table
  repeated over the rows, plus the product of the layer's input with slab `j` of the second stack, then — in layers
  0 to 3 — the maximum with zero. Read entry by entry that is `(A·Wl + b) + X·Wr`, the network's layer with the bias
  added before the second product; the two are the same sum of extended reals.
-/
import proofs.«150988_j51238959841366_1_alg».proof.Proof.Gen.ReferenceIdeal.Read
import proofs.«150988_j51238959841366_1_alg».proof.Proof.LibRowsCols
import proofs.«150988_j51238959841366_1_alg».proof.Proof.Net

noncomputable section

namespace Cert.Sage.Ref

open Idealize.ShloMosaic Idealize.ShloMosaic.ValueIdx Cert.Dense Cert.Sage
open Cert.ReferenceIdeal Cert.ReferenceIdeal.Read

/-- The reference's contraction record multiplies rows by columns: one contracted axis of extent 128, the left
    operand read at (row, k), the right one at (k, column). -/
theorem rowsCols : RowsCols dot_S50000x128_S128x128_S50000x128_1_0_0_1_n_n :=
  ⟨rfl, rfl, fun _ _ => rfl, fun _ _ => rfl, fun _ _ => rfl, fun _ _ => rfl⟩

variable (x0 : (⟨S50000x128, .f32⟩ : BufTy).Contents (Elt Ideal)) (x1 : (⟨S2x600000, .i32⟩ : BufTy).Contents (Elt Ideal))
  (x2 : (⟨S5x128x128, .f32⟩ : BufTy).Contents (Elt Ideal)) (x3 : (⟨S5x128, .f32⟩ : BufTy).Contents (Elt Ideal))
  (x4 : (⟨S5x128x128, .f32⟩ : BufTy).Contents (Elt Ideal))

/-! ## Layer 0 -/

/-- Layer 0's aggregated features are the mean aggregation of its input: the same operations, one by one. -/
theorem agg0 : val_main_v24 (F := Ideal) x0 x1 = Net.aggr x1 x0 := rfl

theorem slabL0 : val_main_v26 (F := Ideal) x2 = Glue.slab0 x2 := rfl
theorem slabR0 : val_main_v34 (F := Ideal) x4 = Glue.slab0 x4 := rfl

/-- The bias repeated over all rows, read at an entry: row 0 of the bias table at the entry's column. -/
theorem bias0 (i : S50000x128.Idx) :
    val_main_v28 (F := Ideal) x3 (idx_main_v29 (idx_main_v30 (idx_main_v31 i))) = Block.rowOf (Glue.brow0 x3) (i 1) := by
  show Glue.brow0 x3 _ = Glue.brow0 x3 (ix2 (0 : Fin 1) (i 1))
  refine congrArg (Glue.brow0 x3) ?_
  funext a; apply Fin.ext
  match a with
  | ⟨0, _⟩ => rfl
  | ⟨1, _⟩ => show (i 1).val % 128 = (i 1).val; exact Nat.mod_eq_of_lt (i 1).isLt

/-- Layer 0 of the reference is layer 0 of the network: its two `dot_general`s are the two products, and it adds
    the bias before the second product where the network's layer adds it last — the same sum. -/
theorem layer0 : val_main_v37 (F := Ideal) x0 x1 x2 x3 x4 = Net.layer0 x1 x2 x4 x3 x0 := by
  funext i
  rw [val_main_v37_apply, val_main_v36_apply, val_main_v32_apply, val_main_call0_v0_apply, val_main_call0_cst_apply, val_main_v31_apply, val_main_v30_apply, val_main_v29_apply]
  unfold val_main_v27 val_main_v35
  rw [dotGeneral_apply rowsCols, dotGeneral_apply rowsCols, agg0, slabL0, slabR0, bias0 x3 i]
  exact congrArg (fun z => max z (Ideal.ofBits .f32 0x00000000#32)) (affine_bias_first (Net.aggr x1 x0) x0 (Glue.slab0 x2) (Glue.slab0 x4) (Block.rowOf (Glue.brow0 x3)) i)

/-! ## Layer 1 -/

/-- Layer 1's aggregated features are the mean aggregation of its input: the same operations, one by one. -/
theorem agg1 : val_main_v50 (F := Ideal) x0 x1 x2 x3 x4 = Net.aggr x1 (val_main_v37 (F := Ideal) x0 x1 x2 x3 x4) := rfl

theorem slabL1 : val_main_v52 (F := Ideal) x2 = Glue.slab1 x2 := rfl
theorem slabR1 : val_main_v60 (F := Ideal) x4 = Glue.slab1 x4 := rfl

/-- The bias repeated over all rows, read at an entry: row 1 of the bias table at the entry's column. -/
theorem bias1 (i : S50000x128.Idx) :
    val_main_v54 (F := Ideal) x3 (idx_main_v55 (idx_main_v56 (idx_main_v57 i))) = Block.rowOf (Glue.brow1 x3) (i 1) := by
  show Glue.brow1 x3 _ = Glue.brow1 x3 (ix2 (0 : Fin 1) (i 1))
  refine congrArg (Glue.brow1 x3) ?_
  funext a; apply Fin.ext
  match a with
  | ⟨0, _⟩ => rfl
  | ⟨1, _⟩ => show (i 1).val % 128 = (i 1).val; exact Nat.mod_eq_of_lt (i 1).isLt

/-- Layer 1 of the reference is layer 1 of the network: its two `dot_general`s are the two products, and it adds
    the bias before the second product where the network's layer adds it last — the same sum. -/
theorem layer1 : val_main_v63 (F := Ideal) x0 x1 x2 x3 x4 = Net.layer1 x1 x2 x4 x3 (val_main_v37 (F := Ideal) x0 x1 x2 x3 x4) := by
  funext i
  rw [val_main_v63_apply, val_main_v62_apply, val_main_v58_apply, val_main_call1_v0_apply, val_main_call1_cst_apply, val_main_v57_apply, val_main_v56_apply, val_main_v55_apply]
  unfold val_main_v53 val_main_v61
  rw [dotGeneral_apply rowsCols, dotGeneral_apply rowsCols, agg1, slabL1, slabR1, bias1 x3 i]
  exact congrArg (fun z => max z (Ideal.ofBits .f32 0x00000000#32)) (affine_bias_first (Net.aggr x1 (val_main_v37 (F := Ideal) x0 x1 x2 x3 x4)) (val_main_v37 (F := Ideal) x0 x1 x2 x3 x4) (Glue.slab1 x2) (Glue.slab1 x4) (Block.rowOf (Glue.brow1 x3)) i)

/-! ## Layer 2 -/

/-- Layer 2's aggregated features are the mean aggregation of its input: the same operations, one by one. -/
theorem agg2 : val_main_v76 (F := Ideal) x0 x1 x2 x3 x4 = Net.aggr x1 (val_main_v63 (F := Ideal) x0 x1 x2 x3 x4) := rfl

theorem slabL2 : val_main_v78 (F := Ideal) x2 = Glue.slab2 x2 := rfl
theorem slabR2 : val_main_v86 (F := Ideal) x4 = Glue.slab2 x4 := rfl

/-- The bias repeated over all rows, read at an entry: row 2 of the bias table at the entry's column. -/
theorem bias2 (i : S50000x128.Idx) :
    val_main_v80 (F := Ideal) x3 (idx_main_v81 (idx_main_v82 (idx_main_v83 i))) = Block.rowOf (Glue.brow2 x3) (i 1) := by
  show Glue.brow2 x3 _ = Glue.brow2 x3 (ix2 (0 : Fin 1) (i 1))
  refine congrArg (Glue.brow2 x3) ?_
  funext a; apply Fin.ext
  match a with
  | ⟨0, _⟩ => rfl
  | ⟨1, _⟩ => show (i 1).val % 128 = (i 1).val; exact Nat.mod_eq_of_lt (i 1).isLt

/-- Layer 2 of the reference is layer 2 of the network: its two `dot_general`s are the two products, and it adds
    the bias before the second product where the network's layer adds it last — the same sum. -/
theorem layer2 : val_main_v89 (F := Ideal) x0 x1 x2 x3 x4 = Net.layer2 x1 x2 x4 x3 (val_main_v63 (F := Ideal) x0 x1 x2 x3 x4) := by
  funext i
  rw [val_main_v89_apply, val_main_v88_apply, val_main_v84_apply, val_main_call2_v0_apply, val_main_call2_cst_apply, val_main_v83_apply, val_main_v82_apply, val_main_v81_apply]
  unfold val_main_v79 val_main_v87
  rw [dotGeneral_apply rowsCols, dotGeneral_apply rowsCols, agg2, slabL2, slabR2, bias2 x3 i]
  exact congrArg (fun z => max z (Ideal.ofBits .f32 0x00000000#32)) (affine_bias_first (Net.aggr x1 (val_main_v63 (F := Ideal) x0 x1 x2 x3 x4)) (val_main_v63 (F := Ideal) x0 x1 x2 x3 x4) (Glue.slab2 x2) (Glue.slab2 x4) (Block.rowOf (Glue.brow2 x3)) i)

/-! ## Layer 3 -/

/-- Layer 3's aggregated features are the mean aggregation of its input: the same operations, one by one. -/
theorem agg3 : val_main_v102 (F := Ideal) x0 x1 x2 x3 x4 = Net.aggr x1 (val_main_v89 (F := Ideal) x0 x1 x2 x3 x4) := rfl

theorem slabL3 : val_main_v104 (F := Ideal) x2 = Glue.slab3 x2 := rfl
theorem slabR3 : val_main_v112 (F := Ideal) x4 = Glue.slab3 x4 := rfl

/-- The bias repeated over all rows, read at an entry: row 3 of the bias table at the entry's column. -/
theorem bias3 (i : S50000x128.Idx) :
    val_main_v106 (F := Ideal) x3 (idx_main_v107 (idx_main_v108 (idx_main_v109 i))) = Block.rowOf (Glue.brow3 x3) (i 1) := by
  show Glue.brow3 x3 _ = Glue.brow3 x3 (ix2 (0 : Fin 1) (i 1))
  refine congrArg (Glue.brow3 x3) ?_
  funext a; apply Fin.ext
  match a with
  | ⟨0, _⟩ => rfl
  | ⟨1, _⟩ => show (i 1).val % 128 = (i 1).val; exact Nat.mod_eq_of_lt (i 1).isLt

/-- Layer 3 of the reference is layer 3 of the network: its two `dot_general`s are the two products, and it adds
    the bias before the second product where the network's layer adds it last — the same sum. -/
theorem layer3 : val_main_v115 (F := Ideal) x0 x1 x2 x3 x4 = Net.layer3 x1 x2 x4 x3 (val_main_v89 (F := Ideal) x0 x1 x2 x3 x4) := by
  funext i
  rw [val_main_v115_apply, val_main_v114_apply, val_main_v110_apply, val_main_call3_v0_apply, val_main_call3_cst_apply, val_main_v109_apply, val_main_v108_apply, val_main_v107_apply]
  unfold val_main_v105 val_main_v113
  rw [dotGeneral_apply rowsCols, dotGeneral_apply rowsCols, agg3, slabL3, slabR3, bias3 x3 i]
  exact congrArg (fun z => max z (Ideal.ofBits .f32 0x00000000#32)) (affine_bias_first (Net.aggr x1 (val_main_v89 (F := Ideal) x0 x1 x2 x3 x4)) (val_main_v89 (F := Ideal) x0 x1 x2 x3 x4) (Glue.slab3 x2) (Glue.slab3 x4) (Block.rowOf (Glue.brow3 x3)) i)

/-! ## Layer 4 -/

/-- Layer 4's aggregated features are the mean aggregation of its input: the same operations, one by one. -/
theorem agg4 : val_main_v128 (F := Ideal) x0 x1 x2 x3 x4 = Net.aggr x1 (val_main_v115 (F := Ideal) x0 x1 x2 x3 x4) := rfl

theorem slabL4 : val_main_v130 (F := Ideal) x2 = Glue.slab4 x2 := rfl
theorem slabR4 : val_main_v138 (F := Ideal) x4 = Glue.slab4 x4 := rfl

/-- The bias repeated over all rows, read at an entry: row 4 of the bias table at the entry's column. -/
theorem bias4 (i : S50000x128.Idx) :
    val_main_v132 (F := Ideal) x3 (idx_main_v133 (idx_main_v134 (idx_main_v135 i))) = Block.rowOf (Glue.brow4 x3) (i 1) := by
  show Glue.brow4 x3 _ = Glue.brow4 x3 (ix2 (0 : Fin 1) (i 1))
  refine congrArg (Glue.brow4 x3) ?_
  funext a; apply Fin.ext
  match a with
  | ⟨0, _⟩ => rfl
  | ⟨1, _⟩ => show (i 1).val % 128 = (i 1).val; exact Nat.mod_eq_of_lt (i 1).isLt

/-- Layer 4 of the reference is layer 4 of the network: its two `dot_general`s are the two products, and it adds
    the bias before the second product where the network's layer adds it last — the same sum. -/
theorem layer4 : val_main_v140 (F := Ideal) x0 x1 x2 x3 x4 = Net.layer4 x1 x2 x4 x3 (val_main_v115 (F := Ideal) x0 x1 x2 x3 x4) := by
  funext i
  rw [val_main_v140_apply, val_main_v136_apply, val_main_v135_apply, val_main_v134_apply, val_main_v133_apply]
  unfold val_main_v131 val_main_v139
  rw [dotGeneral_apply rowsCols, dotGeneral_apply rowsCols, agg4, slabL4, slabR4, bias4 x3 i]
  exact (affine_bias_first (Net.aggr x1 (val_main_v115 (F := Ideal) x0 x1 x2 x3 x4)) (val_main_v115 (F := Ideal) x0 x1 x2 x3 x4) (Glue.slab4 x2) (Glue.slab4 x4) (Block.rowOf (Glue.brow4 x3)) i)

/-! ## The result -/

/-- The reference's result, as a function of the five arguments, is the network. -/
theorem result_eq : val_main_v140 (F := Ideal) x0 x1 x2 x3 x4 = Net.net x1 x2 x4 x3 x0 := by
  rw [layer4, layer3, layer2, layer1, layer0]
  rfl

end Cert.Sage.Ref

end
-- ==== Proof.lean ====
/-
  Five stacked mean-aggregation graph layers: a kernel program against its reference, on the extended reals.

  Both programs take node features `x` (50000 × 128), an edge table (2 × 600000 node numbers), two stacks of five
  128 × 128 weight matrices and a table of five bias rows. Both compute, once, one over the in-degree of every
  node (clamped below by one), and then five times: the mean aggregation `A` of the current features `X` along
  the edges (gather the source rows, add them up at the targets, multiply by the inverse degree), and the new
  features `A · Wl + X · Wr + b`, rectified in every layer but the last.

  The kernel program computes the aggregation by host operations and the dense part of each layer by a kernel
  over ten blocks of 5000 rows, adding the two matrix products first and the bias last; the reference computes
  everything on whole arrays and adds the bias to the first product before the second. On the extended reals
  a change of float format is the identity, a matrix-unit product into a zero accumulator and a `dot_general`
  are the same sum of products, a block of rows of a layer is the layer of that block of rows, and addition is
  commutative and associative — also at the infinities, so the inputs' finiteness is never used. Hence both result
  buffers end holding the same function of the five arguments, the network `Cert.Sage.Net.net`:

  * `Cert.Sage.Walk.result`: the kernel program's result buffer, read through its ten segments;
  * `Cert.Sage.Ref.result_eq`: the reference's result, read one operation at a time.

  The frames are the generated ones; the idealization rewrote no operation, so there is nothing to preserve.
-/
import proofs.«150988_j51238959841366_1_alg».proof.Defs
import proofs.«150988_j51238959841366_1_alg».proof.Proof.Gen.Kernel
import proofs.«150988_j51238959841366_1_alg».proof.Proof.Gen.Kernel.Frame
import proofs.«150988_j51238959841366_1_alg».proof.Proof.Gen.KernelIdeal
import proofs.«150988_j51238959841366_1_alg».proof.Proof.Gen.KernelIdeal.Frame
import proofs.«150988_j51238959841366_1_alg».proof.Proof.Gen.ReferenceIdeal
import proofs.«150988_j51238959841366_1_alg».proof.Proof.Gen.ReferenceIdeal.Read
import proofs.«150988_j51238959841366_1_alg».proof.Proof.Gen.Pre_finite_inputs
import proofs.«150988_j51238959841366_1_alg».proof.Proof.KernelRun
import proofs.«150988_j51238959841366_1_alg».proof.Proof.Walk
import proofs.«150988_j51238959841366_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the network of the arguments in their
    result buffer. -/
theorem algebraic : Cert.algebraic_KernelIdeal_ReferenceIdeal := by
  intro m ρ m' ρ' _ hagree
  refine ⟨fun c => Cert.Sage.Net.net (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.Sage.Walk.result m ρ c), (h c).2⟩) (Cert.Sage.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v140_eq, Cert.Sage.Ref.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
   frame_kernel, frame_kernelIdeal, frame_reference, preserves, algebraic⟩

end Cert.Proof

end
